-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temp" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v25)) (v2 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_v29) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_c_0 : IVec S_ 32 := constantI S_ 32 0#32
  let main_v4 : IVec S8192 32 := broadcastInDim S8192 ![] bcast_S_S8192 main_c_0
  let main_v5 : IVec S8192 1 := cmpi .sge main_arg1 main_v4
  let main_c_1 : IVec S_ 1 := constantI S_ 1 1#1
  let main_v6 : IVec S_ 1 := (fun x v => Host.reduce IntOp.andi x v reducesTo_S8192_S_d0 h_S_) main_v5 main_c_1
  let main_v7 : IVec S_ 1 := andi main_v3 main_v6
  let main_c_2 : IVec S_ 32 := constantI S_ 32 10#32
  let main_v8 : IVec S8192 32 := broadcastInDim S8192 ![] bcast_S_S8192 main_c_2
  let main_v9 : IVec S8192 1 := cmpi .slt main_arg1 main_v8
  let main_c_3 : IVec S_ 1 := constantI S_ 1 1#1
  let main_v10 : IVec S_ 1 := (fun x v => Host.reduce IntOp.andi x v reducesTo_S8192_S_d0 h_S_) main_v9 main_c_3
  let main_v11 : IVec S_ 1 := andi main_v7 main_v10
  main_v11
-- ==== Kernel.lean ====
abbrev S8192x128 : Shape := ⟨2, ![8192, 128]⟩
abbrev S8192 : Shape := ⟨1, ![8192]⟩
abbrev S8192x1 : Shape := ⟨2, ![8192, 1]⟩
abbrev S1x8192 : Shape := ⟨2, ![1, 8192]⟩
abbrev S8192x4 : Shape := ⟨2, ![8192, 4]⟩
abbrev S256x128 : Shape := ⟨2, ![256, 128]⟩
abbrev S256x1 : Shape := ⟨2, ![256, 1]⟩
abbrev S256x4 : Shape := ⟨2, ![256, 4]⟩
abbrev S256x8192 : Shape := ⟨2, ![256, 8192]⟩
abbrev S256 : Shape := ⟨1, ![256]⟩
abbrev S_ : Shape := ⟨0, ![]⟩

abbrev nBuf : Space → Nat
  | .hbm => 42
  | .vmem => 8
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .bf16⟩
  | .hbm, ⟨3, _⟩ => ⟨S8192x1, .i32⟩
  | .hbm, ⟨4, _⟩ => ⟨S1x8192, .i32⟩
  | .hbm, ⟨5, _⟩ => ⟨S8192x4, .f32⟩
  | .hbm, ⟨6, _⟩ => ⟨S8192x1, .f32⟩
  | .hbm, ⟨7, _⟩ => ⟨S8192, .f32⟩
  | .hbm, ⟨8, _⟩ => ⟨S8192x1, .f32⟩
  | .hbm, ⟨9, _⟩ => ⟨S8192, .f32⟩
  | .hbm, ⟨10, _⟩ => ⟨S8192x1, .f32⟩
  | .hbm, ⟨11, _⟩ => ⟨S8192, .f32⟩
  | .hbm, ⟨12, _⟩ => ⟨S8192x1, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192, .f32⟩
  | .hbm, ⟨18, _⟩ => ⟨S8192, .f32⟩
  | .hbm, ⟨19, _⟩ => ⟨S8192, .f32⟩
  | .hbm, ⟨20, _⟩ => ⟨S8192, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S8192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .local _ .vmem, ⟨0, _⟩ => ⟨S256x128, .bf16⟩
  | .local _ .vmem, ⟨1, _⟩ => ⟨S256x128, .bf16⟩
  | .local _ .vmem, ⟨2, _⟩ => ⟨S8192x128, .bf16⟩
  | .local _ .vmem, ⟨3, _⟩ => ⟨S256x1, .i32⟩
  | .local _ .vmem, ⟨4, _⟩ => ⟨S256x1, .i32⟩
  | .local _ .vmem, ⟨5, _⟩ => ⟨S1x8192, .i32⟩
  | .local _ .vmem, ⟨6, _⟩ => ⟨S256x4, .f32⟩
  | .local _ .vmem, ⟨7, _⟩ => ⟨S256x4, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst_0 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_1 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_cst_3 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩
abbrev main_v27 : Ref sig .tc := ⟨.hbm, 37, rfl⟩
abbrev main_cst_7 : Ref sig .tc := ⟨.hbm, 38, rfl⟩
abbrev main_v28 : Ref sig .tc := ⟨.hbm, 39, rfl⟩
abbrev main_cst_8 : Ref sig .tc := ⟨.hbm, 40, rfl⟩
abbrev main_v29 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  shapeCasts_S8192_S8192x1 : S8192.ShapeCasts S8192x1
  shapeCasts_S8192_S1x8192 : S8192.ShapeCasts S1x8192
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  iota_S256x1_d0_w32 : S256x1.Iotas .tc 32 [0]
  iota_S1x8192_d1_w32 : S1x8192.Iotas .tc 32 [1]
  broadcasts_S256x1_S256x8192 : S256x1.Broadcasts S256x8192
  broadcasts_S1x8192_S256x8192 : S1x8192.Broadcasts S256x8192
  reduces_S256x8192_S256 : S256x8192.Reduces [1] S256
  shapeCasts_S256_S256x1 : S256.ShapeCasts S256x1
  concatenates_S256x1_S256x1_S256x1_S256x1_S256x4_d1 : Shape.Concatenates [S256x1, S256x1, S256x1, S256x1] S256x4 1
  inb_S256x4_S256x4_0_0 : ∀ a, (![0, 0] : Fin 2 → Nat) a + S256x4.size a ≤ S256x4.size a
  h_S256x4 : 0 < S256x4.numel
  slices_S8192x4_S8192x1_0_0 : S8192x4.Slices ![0, 0] S8192x1
  shapeCasts_S8192x1_S8192 : S8192x1.ShapeCasts S8192
  slices_S8192x4_S8192x1_0_1 : S8192x4.Slices ![0, 1] S8192x1
  slices_S8192x4_S8192x1_0_2 : S8192x4.Slices ![0, 2] S8192x1
  slices_S8192x4_S8192x1_0_3 : S8192x4.Slices ![0, 3] S8192x1
  bcast_S_S8192 : S_.BroadcastsInDim S8192 (![] : Fin 0 → Fin S8192.rank)
  reducesTo_S8192_S_d0 : S8192.ReducesTo [0] S_
  h_S_ : 0 < S_.numel
  dot_S256x128_S8192x128_S256x8192_1_1_0_0_n_n_wf : DotDims.WF S256x128 S8192x128 S256x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S8192x128.size a
  hwx0_0 : ∀ i : grid0.Coords, EltTy.bits .bf16 = 32 ∨ (Rect.block (s := S8192x128) S256x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .bf16 = 32 ∨ (Rect.block (s := S8192x128) S8192x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .i32 = 32 ∨ (Rect.block (s := S8192x1) S256x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .i32 = 32 ∨ (Rect.block (s := S1x8192) S1x8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4.size a ≤ S8192x4.size a
  hwx0_4 : ∀ i : grid0.Coords, EltTy.bits .f32 = 32 ∨ (Rect.block (s := S8192x4) S256x4.size (cc0_transform_4 i) (hinb0_4 i)).WholeWords (EltTy.packing .f32)

variable [Facts₀]

def dot_S256x128_S8192x128_S256x8192_1_1_0_0_n_n : DotDims S256x128 S8192x128 S256x8192 where
  lhsContracting := [1]
  rhsContracting := [1]
  lhsNonContracting := [0]
  rhsNonContracting := [0]
  lhsBatch := []
  rhsBatch := []
  wf := dot_S256x128_S8192x128_S256x8192_1_1_0_0_n_n_wf

abbrev win0_0 : Pipeline.Window sig grid0 :=
  Pipeline.Window.ofSpec (Memref.whole main_v0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x4.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192 : Shape := ⟨1, ![8192]⟩
abbrev S8192x1 : Shape := ⟨2, ![8192, 1]⟩
abbrev S1x10 : Shape := ⟨2, ![1, 10]⟩
abbrev S8192x10 : Shape := ⟨2, ![8192, 10]⟩
abbrev S10x8192 : Shape := ⟨2, ![10, 8192]⟩
abbrev S8192x8192 : Shape := ⟨2, ![8192, 8192]⟩
abbrev S_ : Shape := ⟨0, ![]⟩
abbrev S128x8192 : Shape := ⟨2, ![128, 8192]⟩

abbrev nBuf : Space → Nat
  | .hbm => 70
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x1, .i32⟩
  | .hbm, ⟨3, _⟩ => ⟨S1x10, .i32⟩
  | .hbm, ⟨4, _⟩ => ⟨S8192x10, .i32⟩
  | .hbm, ⟨5, _⟩ => ⟨S8192x10, .i32⟩
  | .hbm, ⟨6, _⟩ => ⟨S8192x10, .i1⟩
  | .hbm, ⟨7, _⟩ => ⟨S8192x10, .f32⟩
  | .hbm, ⟨8, _⟩ => ⟨S10x8192, .f32⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S8192x8192, .i32⟩
  | .hbm, ⟨14, _⟩ => ⟨S8192x8192, .i32⟩
  | .hbm, ⟨15, _⟩ => ⟨S_, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S128x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S8192x8192, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S8192, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S8192, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S8192, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_cst_10 : Ref sig .tc := ⟨.hbm, 58, rfl⟩
abbrev main_v39 : Ref sig .tc := ⟨.hbm, 59, rfl⟩
abbrev main_cst_11 : Ref sig .tc := ⟨.hbm, 60, rfl⟩
abbrev main_v40 : Ref sig .tc := ⟨.hbm, 61, rfl⟩
abbrev main_cst_12 : Ref sig .tc := ⟨.hbm, 62, rfl⟩
abbrev main_v41 : Ref sig .tc := ⟨.hbm, 63, rfl⟩
abbrev main_cst_13 : Ref sig .tc := ⟨.hbm, 64, rfl⟩
abbrev main_v42 : Ref sig .tc := ⟨.hbm, 65, rfl⟩
abbrev main_cst_14 : Ref sig .tc := ⟨.hbm, 66, rfl⟩
abbrev main_v43 : Ref sig .tc := ⟨.hbm, 67, rfl⟩
abbrev main_cst_15 : Ref sig .tc := ⟨.hbm, 68, rfl⟩
abbrev main_v44 : Ref sig .tc := ⟨.hbm, 69, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x10_0_1 : S8192x1.BroadcastsInDim S8192x10 (![0, 1] : Fin 2 → Fin S8192x10.rank)
  bcast_S1x10_S8192x10_0_1 : S1x10.BroadcastsInDim S8192x10 (![0, 1] : Fin 2 → Fin S8192x10.rank)
  transposes_S8192x10_S10x8192_1_0 : S8192x10.Transposes [1, 0] S10x8192
  bcast_S_S8192x8192 : S_.BroadcastsInDim S8192x8192 (![] : Fin 0 → Fin S8192x8192.rank)
  transposes_S8192x128_S128x8192_1_0 : S8192x128.Transposes [1, 0] S128x8192
  reducesTo_S8192x8192_S8192_d1 : S8192x8192.ReducesTo [1] S8192
  h_S_ : 0 < S_.numel
  bcast_S8192x1_S8192x8192_0_1 : S8192x1.BroadcastsInDim S8192x8192 (![0, 1] : Fin 2 → Fin S8192x8192.rank)
  bcast_S_S8192x1 : S_.BroadcastsInDim S8192x1 (![] : Fin 0 → Fin S8192x1.rank)
  bcast_S_S8192 : S_.BroadcastsInDim S8192 (![] : Fin 0 → Fin S8192.rank)
  reducesTo_S8192_S_d0 : S8192.ReducesTo [0] S_
  dot_S8192x10_S10x8192_S8192x8192_1_0_0_1_n_n_wf : DotDims.WF S8192x10 S10x8192 S8192x8192 [1] [0] [0] [1] [] []
  dot_S8192x128_S128x8192_S8192x8192_1_0_0_1_n_n_wf : DotDims.WF S8192x128 S128x8192 S8192x8192 [1] [0] [0] [1] [] []

variable [Facts₀]

def dot_S8192x10_S10x8192_S8192x8192_1_0_0_1_n_n : DotDims S8192x10 S10x8192 S8192x8192 where
  lhsContracting := [1]
  rhsContracting := [0]
  lhsNonContracting := [0]
  rhsNonContracting := [1]
  lhsBatch := []
  rhsBatch := []
  wf := dot_S8192x10_S10x8192_S8192x8192_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KiBody.lean ====
/-
  The kernel body as a triple, and the pipeline's proof data.

  At grid point t the body reads four staging buffers — the block of 256 feature rows (window 0), all 8192 feature
  rows (window 1), the block of 256 labels as a column (window 2), all labels as a row (window 3) — and overwrites
  the fifth (window 4) with the 256 x 4 block of per-row statistics, one store covering the buffer. So what the output
  buffer holds after the body is the one store's payload, a pure function of the four input blocks and the point;
  each input buffer holds its window's block of the array at every point, whether the pipeline fetched it there or
  not (a window whose block index does not move is fetched once and keeps its contents).
-/
import proofs.«113400_j70781061038765_1_alg».proof.Proof.Gen.KernelIdeal.Launch
import proofs.«113400_j70781061038765_1_alg».proof.Proof.Gen.KernelIdeal.Skeleton
import proofs.«113400_j70781061038765_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- Core c's buffers at launch, as a valuation; -/
abbrev V₀ (c : Dev nD) : Valuation τ sig (Elt F) := fun b => m ((c : Dev nD), b)
/-- and when the region is entered: the three host operations before it have run. -/
abbrev V (c : Dev nD) (b : Ref sig .tc) : Buf (Elt F) ((c : Thread nD τ).loc b) := StableHlo.after hostOps0 (V₀ m c) b

/-- Window w's block of its array at point t, the array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not. -/
theorem found0 {c : Dev nD} (dat : Dat τ (Elt F) Unit ℕ (UR sig nD τ) ℕ cfg0 c) (hA : dat.A 0 = V m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem found1 {c : Dev nD} (dat : Dat τ (Elt F) Unit ℕ (UR sig nD τ) ℕ cfg0 c) (hA : dat.A 1 = V m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem found2 {c : Dev nD} (dat : Dat τ (Elt F) Unit ℕ (UR sig nD τ) ℕ cfg0 c) (hA : dat.A 2 = V m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem found3 {c : Dev nD} (dat : Dat τ (Elt F) Unit ℕ (UR sig nD τ) ℕ cfg0 c) (hA : dat.A 3 = V m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-! ## The body's accesses: each one the whole buffer -/

abbrev rQ : Rect S256x128 := Rect.unit (s := S256x128) ![0, 0] S256x128.size inb_S256x128_S256x128_0_0
abbrev rK : Rect S8192x128 := Rect.unit (s := S8192x128) ![0, 0] S8192x128.size inb_S8192x128_S8192x128_0_0
abbrev rQt : Rect S256x1 := Rect.unit (s := S256x1) ![0, 0] S256x1.size inb_S256x1_S256x1_0_0
abbrev rKt : Rect S1x8192 := Rect.unit (s := S1x8192) ![0, 0] S1x8192.size inb_S1x8192_S1x8192_0_0
abbrev rO : Rect S256x4 := Rect.unit (s := S256x4) ![0, 0] S256x4.size inb_S256x4_S256x4_0_0

/-- The 256 x 4 block of statistics the body stores at point i, from the four input blocks. -/
def stats (i : grid0.Coords) (x0 : Vec F S256x128 .bf16) (x1 : Vec F S8192x128 .bf16) (x2 : Vec F S256x1 .i32) (x3 : Vec F S1x8192 .i32) : Vec F S256x4 .f32 :=
  k0_pay1 (k0_pay4 (View.ld x0 rQ) (View.ld x1 rK)) (k0_pay5 i (View.ld x0 rQ) (View.ld x1 rK)) (k0_pay6 i (View.ld x2 rQt) (View.ld x3 rKt))
    (k0_pay7 i (View.ld x0 rQ) (View.ld x1 rK) (View.ld x2 rQt) (View.ld x3 rKt))

/-- What the output buffer holds after the body: its one store. -/
def outBlock (i : grid0.Coords) (x0 : Vec F S256x128 .bf16) (x1 : Vec F S8192x128 .bf16) (x2 : Vec F S256x1 .i32) (x3 : Vec F S1x8192 .i32) : Vec F S256x4 .f32 :=
  View.canon [⟨rO, stats i x0 x1 x2 x3⟩]

/-- The one store covers the buffer. -/
theorem coverO (p0 : Vec F S256x4 .f32) (y : S256x4.Idx) :
    ∃ pc ∈ ([⟨rO, p0⟩] : List (View.Piece (Elt F) S256x4 .f32)), y ∈ pc.1.set :=
  View.cover_of_tiled [⟨rO, p0⟩] S256x4.size (by rfl) y

set_option maxRecDepth 131072 in
set_option maxHeartbeats 4000000 in
/-- The body on whole staging memrefs, the inputs' at read contents x0 … x3 and the output's at anything, runs to the
    continuation holding the inputs as they were and the output at the block of statistics. -/
theorem sound_kernel (c : Dev nD) (E : Set ℕ) (i : grid0.Coords)
    (arg1 : Memref sig .tc .vmem S256x128 .bf16) (harg1 : arg1.IsWhole) (arg2 : Memref sig .tc .vmem S8192x128 .bf16) (harg2 : arg2.IsWhole)
    (arg3 : Memref sig .tc .vmem S256x1 .i32) (harg3 : arg3.IsWhole) (arg4 : Memref sig .tc .vmem S1x8192 .i32) (harg4 : arg4.IsWhole)
    (arg5 : Memref sig .tc .vmem S256x4 .f32) (harg5 : arg5.IsWhole)
    (x0 : Vec F S256x128 .bf16) (x1 : Vec F S8192x128 .bf16) (x2 : Vec F S256x1 .i32) (x3 : Vec F S1x8192 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outBlock i x0 x1 x2 x3)) -∗ K ⟨⟩))
      ⊢ wp frame (wpE (defs₀ (F := F)) Variants.none c none) E (cc0__row_kernel i arg1 harg1 arg2 harg2 arg3 harg3 arg4 harg4 arg5 harg5) K := by
  simp only [cc0__row_kernel_eq_skeleton]; unfold cc0__row_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  dsimp only
  simp only [View.readAt_eq_ld]
  unfold outBlock stats
  exact View.read_writes_eq_canon _ _ _ (coverO _)

end Cert.KernelIdeal.Hand

end
-- ==== Proof.KiData.lean ====
/-
  The pipeline's proof data and the body obligation at every grid point.

  The arrays are as the region finds them. After the body each input buffer holds its block, the output buffer the block
  of statistics of the four input blocks at the point. Windows 0 and 1 read ONE array (the features): each holds half of
  the full share of it; the label arrays and the result are held whole. Nothing is owed, nothing is carried in scratch.
-/
import proofs.«113400_j70781061038765_1_alg».proof.Proof.KiBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- The proof data on core c. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => outBlock (grid0.coords t) (blockAt m c 0 t) (blockAt m c 1 t) (blockAt m c 2 t) (blockAt m c 3 t)
  Φ _ := Pipeline.ΦA spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t
    = outBlock (grid0.coords t) (blockAt m c 0 t) (blockAt m c 1 t) (blockAt m c 2 t) (blockAt m c 3 t) := by dsimp only [dats]

theorem before0 (c : Dev nD) (t : Fin cfg0.N) (d) : (dats m 0 c).before 0 t d = blockAt m c 0 t :=
  found0 m (dats m 0 c) (A_eq m c 0) (after0 m c) t d
theorem before1 (c : Dev nD) (t : Fin cfg0.N) (d) : (dats m 0 c).before 1 t d = blockAt m c 1 t :=
  found1 m (dats m 0 c) (A_eq m c 1) (after1 m c) t d
theorem before2 (c : Dev nD) (t : Fin cfg0.N) (d) : (dats m 0 c).before 2 t d = blockAt m c 2 t :=
  found2 m (dats m 0 c) (A_eq m c 2) (after2 m c) t d
theorem before3 (c : Dev nD) (t : Fin cfg0.N) (d) : (dats m 0 c).before 3 t d = blockAt m c 3 t :=
  found3 m (dats m 0 c) (A_eq m c 3) (after3 m c) t d

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (blockAt m c 0 t) (blockAt m c 1 t) (blockAt m c 2 t) (blockAt m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KiShare.lean ====
/-
  The arrays at the region's two ends.

  The pipeline's five windows stand on FOUR arrays: windows 0 and 1 both read the converted features. At the entry the
  four buffers, each held whole, become the windows' holdings: the features' buffer split into its two halves (one per
  window), the two label arrays and the result whole. At the exit the two halves are joined again. The contents of an
  input's array never change; the result's are what the write-backs left.
-/
import proofs.«113400_j70781061038765_1_alg».proof.Proof.KiData
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- The four arrays behind the five windows. -/
theorem arrRefs_eq : (Finset.univ.image (Pipeline.arrRef spec0) : Finset (Ref sig .tc))
    = ([main_v0, main_v1, main_v2, main_v3] : List (Ref sig .tc)).toFinset := by decide

/-- The buffers behind the arrays, one by one. -/
theorem arrBufs_chain (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      = iprop((((c : Thread nD τ).loc main_v0) ↦{fullShare} Vc main_v0) ∗ (((c : Thread nD τ).loc main_v1) ↦{fullShare} Vc main_v1)
          ∗ (((c : Thread nD τ).loc main_v2) ↦{fullShare} Vc main_v2) ∗ (((c : Thread nD τ).loc main_v3) ↦{fullShare} Vc main_v3)) := by
  unfold Pipeline.arrBufs
  rw [bigSep_eq_bigSepL_of_eq [main_v0, main_v1, main_v2, main_v3] arrRefs_eq (by decide)]
  rfl

theorem share0 (c : Dev nD) : (dats m 0 c).share 0 = fullShare.left := by
  unfold Dat.share; dsimp only [dats]; rfl
theorem share1 (c : Dev nD) : (dats m 0 c).share 1 = fullShare.right := by
  unfold Dat.share; dsimp only [dats]; rfl
theorem share2 (c : Dev nD) : (dats m 0 c).share 2 = fullShare := by
  unfold Dat.share; dsimp only [dats]; rfl
theorem share3 (c : Dev nD) : (dats m 0 c).share 3 = fullShare := by
  unfold Dat.share; dsimp only [dats]; rfl
theorem share4 (c : Dev nD) : (dats m 0 c).share 4 = fullShare := rfl

/-- A window's holding of its array, the array a whole buffer. -/
theorem arr_pt (c : Dev nD) (w : Fin cfg0.W) (q : PosShare TreeShare) (f : Buf (Elt F) ((cfg0.win w).arr.view.loc (c : Thread nD τ))) :
    ((((cfg0.win w).arr.view.loc (c : Thread nD τ)) ↦[(cfg0.win w).arr.view.set]{q} f) : sProp 𝕄)
      = (((c : Thread nD τ).loc (Pipeline.arrRef spec0 w)) ↦{q} f) := by
  rw [(arr_whole0 w).set_eq_univ]

/-- The windows' holdings, one by one. -/
theorem arrays_chain (c : Dev nD) (Fw : (w : Fin cfg0.W) → Buf (Elt F) ((cfg0.win w).arr.view.loc (c : Thread nD τ))) :
    ((dats m 0 c).arrays Fw : sProp 𝕄)
      = iprop((((c : Thread nD τ).loc main_v0) ↦{fullShare.left} Fw 0) ∗ (((c : Thread nD τ).loc main_v0) ↦{fullShare.right} Fw 1)
          ∗ (((c : Thread nD τ).loc main_v1) ↦{fullShare} Fw 2) ∗ (((c : Thread nD τ).loc main_v2) ↦{fullShare} Fw 3)
          ∗ (((c : Thread nD τ).loc main_v3) ↦{fullShare} Fw 4)) := by
  unfold Dat.arrays
  rw [bigSep_W0, arr_pt, arr_pt, arr_pt, arr_pt, arr_pt, share0, share1, share2, share3, share4]

/-- ENTRY: the four buffers as the region finds them are the five windows' holdings at the entry contents. -/
theorem arrays_of_arrBufs (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_chain, arrays_chain]
  iintro ⟨H0, H1, H2, H3⟩
  ihave H0' := (pointsTo_share (PosShare.mem_left_op_right fullShare)).1 $$ H0
  icases H0' with ⟨Ha, Hb⟩
  isplitl [Ha]; · iexact Ha
  isplitl [Hb]; · iexact Hb
  isplitl [H1]; · iexact H1
  isplitl [H2]; · iexact H2
  iexact H3

/-- The region's exit contents: the result array at what the write-backs left, every other buffer as the region found it. -/
def W₁ (c : Dev nD) : Valuation τ sig (Elt F) :=
  Function.update (StableHlo.after hostOps0 (V₀ m c)) (Proc.devRef .tc main_v3) ((dats m 0 c).arrAt 4 cfg0.N)

theorem W₁_out (c : Dev nD) : W₁ m c (Proc.devRef .tc main_v3) = (dats m 0 c).arrAt 4 cfg0.N := by
  unfold W₁; exact Function.update_self _ _ _

theorem W₁_of_ne (c : Dev nD) (b : Ref sig .tc) (hb : b ≠ main_v3) : W₁ m c (Proc.devRef .tc b) = V m c b := by
  unfold W₁; exact Function.update_of_ne (fun e => hb (Proc.devRef_injective _ e)) _ _

/-- EXIT: the five windows' holdings at the final contents are the four buffers at the exit contents. -/
theorem arrBufs_of_arrays (c : Dev nD) :
    ((dats m 0 c).arrays ((dats m 0 c).arrAt · cfg0.N) : sProp 𝕄)
      ⊢ Pipeline.arrBufs (Ix := Unit) (Name := ℕ) (U := UR sig nD τ) (Lvl := ℕ) spec0 c (fun b => W₁ m c (Proc.devRef .tc b)) := by
  rw [arrBufs_chain, arrays_chain, W₁_out, W₁_of_ne m c main_v0 (by decide), W₁_of_ne m c main_v1 (by decide), W₁_of_ne m c main_v2 (by decide),
    (dats m 0 c).arrAt_in 0 rfl, (dats m 0 c).arrAt_in 1 rfl, (dats m 0 c).arrAt_in 2 rfl, (dats m 0 c).arrAt_in 3 rfl]
  iintro ⟨Ha, Hb, H1, H2, H3⟩
  isplitl [Ha Hb]
  · iapply (pointsTo_share (PosShare.mem_left_op_right fullShare)).2
    isplitl [Ha]; · iexact Ha
    iexact Hb
  isplitl [H1]; · iexact H1
  isplitl [H2]; · iexact H2
  iexact H3

theorem out_mem : main_v3 ∈ (Finset.univ.image (Pipeline.arrRef spec0) : Finset (Ref sig .tc)) := by
  rw [arrRefs_eq]; decide

/-- The buffers that bypass the region are no array: the exit contents are the entry contents there. -/
theorem rest_exit (c : Dev nD) :
    (Pipeline.unscopedRest (Ix := Unit) (Name := ℕ) (U := UR sig nD τ) (Lvl := ℕ) spec0 c (V m c) : sProp 𝕄)
      = Pipeline.unscopedRest spec0 c (fun b => W₁ m c (Proc.devRef .tc b)) := by
  unfold Pipeline.unscopedRest
  refine bigSep_congr fun b hb => ?_
  have e : W₁ m c (Proc.devRef .tc b) = V m c b :=
    W₁_of_ne m c b fun e => (Finset.mem_sdiff.mp hb).2 (e ▸ out_mem)
  simp only [e]

end Cert.KernelIdeal.Hand

end
-- ==== Proof.KiRun.lean ====
/-
  The run of the whole program: three host operations, the kernel region, thirty-six host operations.

  Between the segments the core holds all its unscoped buffers whole, at a valuation: the launch contents; after the
  first three operations; at the region's exit (the result array as the write-backs left it, every other buffer as the
  region found it); after the last thirty-six operations. Beside them ride what the core owes (nothing) and its
  generator register. Every weakly fair execution terminates, and the final memory holds every unscoped buffer at the
  last valuation.
-/
import proofs.«113400_j70781061038765_1_alg».proof.Proof.KiShare
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

variable (ρ : Dev nD → PrngReg)

/-- No core owes another anything: no level is assigned. -/
abbrev Lz : GSem nD τ sig → Finset Unit := fun _ => ∅
abbrev lvz : GSem nD τ sig → Unit → ℕ := fun _ _ => 0
/-- No prefetched table. -/
abbrev adm : (p : Fin 1) → (pcfgs (F := F) p).Adm := fun p => (cfgs p).toPCfg_adm

/-- What rides beside the buffers: what the core owes (nothing) and its generator register. -/
abbrev R (c : Dev nD) : sProp 𝕄 :=
  iprop((∃ W, owes (c : Thread nD τ) (0 : CellTallies nD τ sig Unit) W) ∗ ∃ r, prngReg c r)

/-- The three operations before the region, over all the unscoped buffers. -/
def seg0 : Pipeline.HostSeg (Name := ℕ) (U := UR sig nD τ) (pcfgs (F := F)) defs₀ Variants.none Lz lvz :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m) R

/-- The thirty-six operations after it, from the region's exit contents. -/
def seg1 : Pipeline.HostSeg (Name := ℕ) (U := UR sig nD τ) (pcfgs (F := F)) defs₀ Variants.none Lz lvz :=
  Pipeline.HostSeg.ofOps _ _ _ _ _ (Pipeline.ucRefs τ sig) hostOps1
    (fun op h => Pipeline.sub_ucRefs op ((List.forall_iff_forall_mem.mp hostOps1_sub) op h))
    (by intro _ h; (repeat (cases h with | head => rfl | tail _ h => ?_)); exact nomatch h) (W₁ m) R

set_option backward.isDefEq.respectTransparency.types false in
/-- The region: entered from all the unscoped buffers after the first operations — the four arrays into the pipeline
    (the features' buffer as two halves), the generator register into the invariant, every other buffer bypassing —,
    left with all the unscoped buffers at the exit contents. -/
def reg0 : Pipeline.RegionSeg (pcfgs (F := F)) adm (dats m) () defs₀ Variants.none Lz lvz 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ Lz lvz 0 fun _ _ => rfl
  pre c := iprop(StableHlo.held (c : Thread nD τ) (Pipeline.ucRefs τ sig) (StableHlo.after hostOps0 (V₀ m c)) ∗ R c)
  post c := iprop(StableHlo.held (c : Thread nD τ) (Pipeline.ucRefs τ sig) (W₁ m c) ∗ R c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [show StableHlo.held (c : Thread nD τ) (Pipeline.ucRefs τ sig) (StableHlo.after hostOps0 (V₀ m c)) = unscopedBufs c (V m c)
          from (Pipeline.unscopedBufs_held c _).symm,
      Pipeline.unscopedBufs_split₀ cfgs 0 winFacts₀0.arr_unscoped c (V m c)]
    iintro ⟨⟨⟨Hab, Hur⟩, ⟨HO, Hp⟩⟩, -, -⟩
    ihave Ha := (arrays_of_arrBufs m c) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hur
  hin c := by
    rw [show (dats m 0 c).Φ 0 = Pipeline.ΦA spec0 c from rfl]; unfold Pipeline.ΦA
    iintro ⟨Hp, -, Hr⟩
    isplitl [Hr] <;> iassumption
  hout c := by
    rw [Pipeline.ownSems0_none, show (dats m 0 c).Φ (Fin.last cfg0.N) = Pipeline.ΦA spec0 c from rfl]; unfold Pipeline.ΦA
    iintro ⟨Hr, Hp⟩
    isplitl [Hp]; · iexact Hp
    isplitr; · iempintro
    iexact Hr
  hexit c := by
    iintro ⟨Ha, HO, HY, HZ⟩
    ihave Hab := (arrBufs_of_arrays m c) $$ Ha
    imodintro
    isplitr [HO HY]
    · rw [← Pipeline.unscopedBufs_held c (W₁ m c), Pipeline.unscopedBufs_split₀ cfgs 0 winFacts₀0.arr_unscoped c (fun b => W₁ m c b),
        ← rest_exit m c]
      isplitl [Hab] <;> iassumption
    · isplitl [HO]
      · unfold Pipeline.Dat.owesAt Pipeline.owesWithin
        icases HO with ⟨%W, -, HO⟩; iexists W; iexact HO
      · iexact HY

/-- @main as the list of the three. -/
abbrev segs : List (Pipeline.Seg (pcfgs (F := F)) adm (dats m) () defs₀ Variants.none Lz lvz) :=
  [.host (seg0 m), .region (reg0 m), .host (seg1 m)]

/-- What the final memory holds: every unscoped buffer at the valuation after the last operations. -/
def QC (c : Dev nD) (s : MemSt nD τ sig (Elt F)) : Prop :=
  ∀ b ∈ Pipeline.ucRefs τ sig, s.mem ((c : Thread nD τ).1, b) = StableHlo.after hostOps1 (W₁ m c) b

set_option backward.isDefEq.respectTransparency.types false in
/-- At the compiled mesh, for any float values, from any memory with zero counters: every weakly fair execution of the
    program on the TensorCores terminates, and every final memory holds every unscoped buffer at the valuation after the
    last operations. -/
theorem run_main : θ_run defs (onTc (τ := τ) (main (F := F))) ⟨m, fun _ => 0, ρ⟩ (fun r => ∀ c : Dev nD, QC m c r.2) :=
  Pipeline.θ_run_regions_kit (pcfgs (F := F)) adm (dats m) () cellOf_inj emb₁ defs₀ Variants.none Lz lvz m ρ main (segs m)
    (fun c Q => by rw [main_segs adm (dats m) () Variants.none Lz lvz (seg0 m) (seg1 m) (reg0 m) rfl rfl c])
    (by simp only [Pipeline.Seg.pipes_host, Pipeline.Seg.pipes_region, Pipeline.Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => iprop(StableHlo.held (c : Thread nD τ) (Pipeline.ucRefs τ sig) (StableHlo.after hostOps1 (W₁ m c)) ∗ ∃ r, prngReg c r))
    (hch := ⟨fun _ => .rfl, fun _ => .rfl, fun _ => .rfl, fun c => by
      show iprop(StableHlo.held (c : Thread nD τ) (Pipeline.ucRefs τ sig) (StableHlo.after hostOps1 (W₁ m c)) ∗ R c) ⊢ _
      iintro ⟨Hh, HO, Hp⟩
      isplitr [HO]
      · isplitl [Hh] <;> iassumption
      · iexact HO⟩)
    (hinit := by
      refine Pipeline.initEach Lz lvz fun c => ?_
      rw [show unscopedBufs c (fun b => m ((c : Thread nD τ).loc b)) = StableHlo.held (c : Thread nD τ) (Pipeline.ucRefs τ sig) (V₀ m c)
        from Pipeline.unscopedBufs_held c (V₀ m c)]
      iintro ⟨⟨Hh, -, HO, -, Hp, -⟩, -⟩
      imodintro
      isplitl [Hh]; · iexact Hh
      isplitl [HO]; · iexists ∅; iexact HO
      iexists _; iexact Hp)
    (QY := QC m)
    (hfin := fun c s' => by
      iintro ⟨⟨Hh, -⟩, HSI⟩
      unfold StableHlo.held
      ihave Hr := (pointsTo_read_all (Pipeline.ucRefs τ sig) (fun b => ((c : Thread nD τ).1, b)) (StableHlo.after hostOps1 (W₁ m c)) s') $$ [Hh HSI]
      · isplitl [Hh] <;> iassumption
      icases Hr with ⟨%h, HSI⟩
      imodintro
      isplitr; · ipureintro; exact h
      iexact HSI)
    (hQ := fun _ h => h)

end Cert.KernelIdeal.Hand

end
-- ==== Proof.KiFrame.lean ====
/-
  The frame of the whole program: the two arguments end as launched. Generic in the float values.
-/
import proofs.«113400_j70781061038765_1_alg».proof.Proof.KiRun

noncomputable section

namespace Cert.KernelIdeal.HandFrame

open Cert.KernelIdeal Cert.KernelIdeal.Gen Cert.KernelIdeal.Hand
open Idealize.ShloMosaic Idealize.ShloMosaic.TcCoe Idealize.SL.Sem

variable {F : FTy → Type} [FloatOps F] [Named F]

variable (m : (ℓ : Loc nD τ sig) → Buf (Elt F) ℓ)

/-- An unscoped reference of the core is one of the buffers the run accounts for. -/
theorem mem_ucRefs (b : Ref sig .tc) (hb : b.isScoped = false) : Proc.devRef (τ := τ) .tc b ∈ Pipeline.ucRefs τ sig :=
  Finset.mem_filter.mpr ⟨StableHlo.devRef_mem_tcRefs b, by
    show ¬ b.isScoped = true
    rw [hb]; exact Bool.false_ne_true⟩

/-- The three operations before the region write none of the other buffers. -/
theorem not_written0 (b : Ref sig .tc) (hb : b ≠ main_v0 ∧ b ≠ main_v1 ∧ b ≠ main_v2) :
    ∀ op ∈ (hostOps0 (F := F)), Proc.devRef .tc b ∉ op.writes := by
  obtain ⟨h0, h1, h2⟩ := hb
  intro op hop
  simp only [List.mem_cons, List.mem_nil_iff, or_false] at hop
  rcases hop with rfl | rfl | rfl <;>
    simp only [StableHlo.unary_writes, StableHlo.reshape_writes, Finset.mem_singleton] <;>
    exact StableHlo.devRef_ne_of_ne ‹_›

/-- The thirty-six operations after the region write neither argument. -/
theorem not_written1 (b : Ref sig .tc) (hb : b = main_arg0 ∨ b = main_arg1) :
    ∀ op ∈ (hostOps1 (F := F)), Proc.devRef .tc b ∉ op.writes := by
  intro op hop
  simp only [List.mem_cons, List.mem_nil_iff, or_false] at hop
  rcases hb with rfl | rfl <;>
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;>
    simp only [StableHlo.nullary_writes, StableHlo.unary_writes, StableHlo.binary_writes, StableHlo.reshape_writes, Finset.mem_singleton] <;>
    exact StableHlo.devRef_ne_of_ne (by decide)

/-- Each argument ends as launched: no operation writes it, and the region's exit contents differ from its entry
    contents at the result array only. -/
theorem args_final (c : Dev nD) (s : MemSt nD τ sig (Elt F)) (h : QC m c s) (b : Ref sig .tc) (hb : b = main_arg0 ∨ b = main_arg1) :
    s.mem ((c.tc : Thread nD τ).loc b) = m ((c.tc : Thread nD τ).loc b) := by
  have hs : b.isScoped = false := by rcases hb with rfl | rfl <;> rfl
  have hne : b ≠ main_v3 := by rcases hb with rfl | rfl <;> decide
  have h012 : b ≠ main_v0 ∧ b ≠ main_v1 ∧ b ≠ main_v2 := by rcases hb with rfl | rfl <;> decide
  refine (h _ (mem_ucRefs b hs)).trans ?_
  rw [StableHlo.after_of_forall_not_mem hostOps1 (W₁ m c) (not_written1 b hb), W₁_of_ne m c b hne]
  exact StableHlo.after_of_forall_not_mem hostOps0 (V₀ m c) (not_written0 b h012)

/-- The frame: every weakly fair execution terminates with the two arguments unchanged. -/
theorem run_frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨args_final m c r.2 (h c) main_arg0 (Or.inl rfl), args_final m c r.2 (h c) main_arg1 (Or.inr rfl)⟩)
    (run_main m ρ)

end Cert.KernelIdeal.HandFrame

end
-- ==== Proof.KwBody.lean ====
/-
  The kernel body as a triple, and the pipeline's proof data.

  At grid point t the body reads four staging buffers — the block of 256 feature rows (window 0), all 8192 feature
  rows (window 1), the block of 256 labels as a column (window 2), all labels as a row (window 3) — and overwrites
  the fifth (window 4) with the 256 x 4 block of per-row statistics, one store covering the buffer. So what the output
  buffer holds after the body is the one store's payload, a pure function of the four input blocks and the point;
  each input buffer holds its window's block of the array at every point, whether the pipeline fetched it there or
  not (a window whose block index does not move is fetched once and keeps its contents).
-/
import proofs.«113400_j70781061038765_1_alg».proof.Proof.Gen.Kernel.Launch
import proofs.«113400_j70781061038765_1_alg».proof.Proof.Gen.Kernel.Skeleton
import proofs.«113400_j70781061038765_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core c's buffers at launch, as a valuation; -/
abbrev V₀ (c : Dev nD) : Valuation τ sig (Elt F) := fun b => m ((c : Dev nD), b)
/-- and when the region is entered: the three host operations before it have run. -/
abbrev V (c : Dev nD) (b : Ref sig .tc) : Buf (Elt F) ((c : Thread nD τ).loc b) := StableHlo.after hostOps0 (V₀ m c) b

/-- Window w's block of its array at point t, the array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not. -/
theorem found0 {c : Dev nD} (dat : Dat τ (Elt F) Unit ℕ (UR sig nD τ) ℕ cfg0 c) (hA : dat.A 0 = V m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem found1 {c : Dev nD} (dat : Dat τ (Elt F) Unit ℕ (UR sig nD τ) ℕ cfg0 c) (hA : dat.A 1 = V m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem found2 {c : Dev nD} (dat : Dat τ (Elt F) Unit ℕ (UR sig nD τ) ℕ cfg0 c) (hA : dat.A 2 = V m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem found3 {c : Dev nD} (dat : Dat τ (Elt F) Unit ℕ (UR sig nD τ) ℕ cfg0 c) (hA : dat.A 3 = V m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-! ## The body's accesses: each one the whole buffer -/

abbrev rQ : Rect S256x128 := Rect.unit (s := S256x128) ![0, 0] S256x128.size inb_S256x128_S256x128_0_0
abbrev rK : Rect S8192x128 := Rect.unit (s := S8192x128) ![0, 0] S8192x128.size inb_S8192x128_S8192x128_0_0
abbrev rQt : Rect S256x1 := Rect.unit (s := S256x1) ![0, 0] S256x1.size inb_S256x1_S256x1_0_0
abbrev rKt : Rect S1x8192 := Rect.unit (s := S1x8192) ![0, 0] S1x8192.size inb_S1x8192_S1x8192_0_0
abbrev rO : Rect S256x4 := Rect.unit (s := S256x4) ![0, 0] S256x4.size inb_S256x4_S256x4_0_0

/-- The 256 x 4 block of statistics the body stores at point i, from the four input blocks. -/
def stats (i : grid0.Coords) (x0 : Vec F S256x128 .bf16) (x1 : Vec F S8192x128 .bf16) (x2 : Vec F S256x1 .i32) (x3 : Vec F S1x8192 .i32) : Vec F S256x4 .f32 :=
  k0_pay1 (k0_pay4 (View.ld x0 rQ) (View.ld x1 rK)) (k0_pay5 i (View.ld x0 rQ) (View.ld x1 rK)) (k0_pay6 i (View.ld x2 rQt) (View.ld x3 rKt))
    (k0_pay7 i (View.ld x0 rQ) (View.ld x1 rK) (View.ld x2 rQt) (View.ld x3 rKt))

/-- What the output buffer holds after the body: its one store. -/
def outBlock (i : grid0.Coords) (x0 : Vec F S256x128 .bf16) (x1 : Vec F S8192x128 .bf16) (x2 : Vec F S256x1 .i32) (x3 : Vec F S1x8192 .i32) : Vec F S256x4 .f32 :=
  View.canon [⟨rO, stats i x0 x1 x2 x3⟩]

/-- The one store covers the buffer. -/
theorem coverO (p0 : Vec F S256x4 .f32) (y : S256x4.Idx) :
    ∃ pc ∈ ([⟨rO, p0⟩] : List (View.Piece (Elt F) S256x4 .f32)), y ∈ pc.1.set :=
  View.cover_of_tiled [⟨rO, p0⟩] S256x4.size (by rfl) y

set_option maxRecDepth 131072 in
set_option maxHeartbeats 4000000 in
/-- The body on whole staging memrefs, the inputs' at read contents x0 … x3 and the output's at anything, runs to the
    continuation holding the inputs as they were and the output at the block of statistics. -/
theorem sound_kernel (c : Dev nD) (E : Set ℕ) (i : grid0.Coords)
    (arg1 : Memref sig .tc .vmem S256x128 .bf16) (harg1 : arg1.IsWhole) (arg2 : Memref sig .tc .vmem S8192x128 .bf16) (harg2 : arg2.IsWhole)
    (arg3 : Memref sig .tc .vmem S256x1 .i32) (harg3 : arg3.IsWhole) (arg4 : Memref sig .tc .vmem S1x8192 .i32) (harg4 : arg4.IsWhole)
    (arg5 : Memref sig .tc .vmem S256x4 .f32) (harg5 : arg5.IsWhole)
    (x0 : Vec F S256x128 .bf16) (x1 : Vec F S8192x128 .bf16) (x2 : Vec F S256x1 .i32) (x3 : Vec F S1x8192 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outBlock i x0 x1 x2 x3)) -∗ K ⟨⟩))
      ⊢ wp frame (wpE (defs₀ (F := F)) Variants.none c none) E (cc0__row_kernel i arg1 harg1 arg2 harg2 arg3 harg3 arg4 harg4 arg5 harg5) K := by
  simp only [cc0__row_kernel_eq_skeleton]; unfold cc0__row_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  dsimp only
  simp only [View.readAt_eq_ld]
  unfold outBlock stats
  exact View.read_writes_eq_canon _ _ _ (coverO _)

end Cert.Kernel.Hand

end
-- ==== Proof.KwData.lean ====
/-
  The pipeline's proof data and the body obligation at every grid point.

  The arrays are as the region finds them. After the body each input buffer holds its block, the output buffer the block
  of statistics of the four input blocks at the point. Windows 0 and 1 read ONE array (the features): each holds half of
  the full share of it; the label arrays and the result are held whole. Nothing is owed, nothing is carried in scratch.
-/
import proofs.«113400_j70781061038765_1_alg».proof.Proof.KwBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The proof data on core c. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => outBlock (grid0.coords t) (blockAt m c 0 t) (blockAt m c 1 t) (blockAt m c 2 t) (blockAt m c 3 t)
  Φ _ := Pipeline.ΦA spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t
    = outBlock (grid0.coords t) (blockAt m c 0 t) (blockAt m c 1 t) (blockAt m c 2 t) (blockAt m c 3 t) := by dsimp only [dats]

theorem before0 (c : Dev nD) (t : Fin cfg0.N) (d) : (dats m 0 c).before 0 t d = blockAt m c 0 t :=
  found0 m (dats m 0 c) (A_eq m c 0) (after0 m c) t d
theorem before1 (c : Dev nD) (t : Fin cfg0.N) (d) : (dats m 0 c).before 1 t d = blockAt m c 1 t :=
  found1 m (dats m 0 c) (A_eq m c 1) (after1 m c) t d
theorem before2 (c : Dev nD) (t : Fin cfg0.N) (d) : (dats m 0 c).before 2 t d = blockAt m c 2 t :=
  found2 m (dats m 0 c) (A_eq m c 2) (after2 m c) t d
theorem before3 (c : Dev nD) (t : Fin cfg0.N) (d) : (dats m 0 c).before 3 t d = blockAt m c 3 t :=
  found3 m (dats m 0 c) (A_eq m c 3) (after3 m c) t d

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (blockAt m c 0 t) (blockAt m c 1 t) (blockAt m c 2 t) (blockAt m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KwShare.lean ====
/-
  The arrays at the region's two ends.

  The pipeline's five windows stand on FOUR arrays: windows 0 and 1 both read the converted features. At the entry the
  four buffers, each held whole, become the windows' holdings: the features' buffer split into its two halves (one per
  window), the two label arrays and the result whole. At the exit the two halves are joined again. The contents of an
  input's array never change; the result's are what the write-backs left.
-/
import proofs.«113400_j70781061038765_1_alg».proof.Proof.KwData
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The four arrays behind the five windows. -/
theorem arrRefs_eq : (Finset.univ.image (Pipeline.arrRef spec0) : Finset (Ref sig .tc))
    = ([main_v0, main_v1, main_v2, main_v3] : List (Ref sig .tc)).toFinset := by decide

/-- The buffers behind the arrays, one by one. -/
theorem arrBufs_chain (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      = iprop((((c : Thread nD τ).loc main_v0) ↦{fullShare} Vc main_v0) ∗ (((c : Thread nD τ).loc main_v1) ↦{fullShare} Vc main_v1)
          ∗ (((c : Thread nD τ).loc main_v2) ↦{fullShare} Vc main_v2) ∗ (((c : Thread nD τ).loc main_v3) ↦{fullShare} Vc main_v3)) := by
  unfold Pipeline.arrBufs
  rw [bigSep_eq_bigSepL_of_eq [main_v0, main_v1, main_v2, main_v3] arrRefs_eq (by decide)]
  rfl

theorem share0 (c : Dev nD) : (dats m 0 c).share 0 = fullShare.left := by
  unfold Dat.share; dsimp only [dats]; rfl
theorem share1 (c : Dev nD) : (dats m 0 c).share 1 = fullShare.right := by
  unfold Dat.share; dsimp only [dats]; rfl
theorem share2 (c : Dev nD) : (dats m 0 c).share 2 = fullShare := by
  unfold Dat.share; dsimp only [dats]; rfl
theorem share3 (c : Dev nD) : (dats m 0 c).share 3 = fullShare := by
  unfold Dat.share; dsimp only [dats]; rfl
theorem share4 (c : Dev nD) : (dats m 0 c).share 4 = fullShare := rfl

/-- A window's holding of its array, the array a whole buffer. -/
theorem arr_pt (c : Dev nD) (w : Fin cfg0.W) (q : PosShare TreeShare) (f : Buf (Elt F) ((cfg0.win w).arr.view.loc (c : Thread nD τ))) :
    ((((cfg0.win w).arr.view.loc (c : Thread nD τ)) ↦[(cfg0.win w).arr.view.set]{q} f) : sProp 𝕄)
      = (((c : Thread nD τ).loc (Pipeline.arrRef spec0 w)) ↦{q} f) := by
  rw [(arr_whole0 w).set_eq_univ]

/-- The windows' holdings, one by one. -/
theorem arrays_chain (c : Dev nD) (Fw : (w : Fin cfg0.W) → Buf (Elt F) ((cfg0.win w).arr.view.loc (c : Thread nD τ))) :
    ((dats m 0 c).arrays Fw : sProp 𝕄)
      = iprop((((c : Thread nD τ).loc main_v0) ↦{fullShare.left} Fw 0) ∗ (((c : Thread nD τ).loc main_v0) ↦{fullShare.right} Fw 1)
          ∗ (((c : Thread nD τ).loc main_v1) ↦{fullShare} Fw 2) ∗ (((c : Thread nD τ).loc main_v2) ↦{fullShare} Fw 3)
          ∗ (((c : Thread nD τ).loc main_v3) ↦{fullShare} Fw 4)) := by
  unfold Dat.arrays
  rw [bigSep_W0, arr_pt, arr_pt, arr_pt, arr_pt, arr_pt, share0, share1, share2, share3, share4]

/-- ENTRY: the four buffers as the region finds them are the five windows' holdings at the entry contents. -/
theorem arrays_of_arrBufs (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_chain, arrays_chain]
  iintro ⟨H0, H1, H2, H3⟩
  ihave H0' := (pointsTo_share (PosShare.mem_left_op_right fullShare)).1 $$ H0
  icases H0' with ⟨Ha, Hb⟩
  isplitl [Ha]; · iexact Ha
  isplitl [Hb]; · iexact Hb
  isplitl [H1]; · iexact H1
  isplitl [H2]; · iexact H2
  iexact H3

/-- The region's exit contents: the result array at what the write-backs left, every other buffer as the region found it. -/
def W₁ (c : Dev nD) : Valuation τ sig (Elt F) :=
  Function.update (StableHlo.after hostOps0 (V₀ m c)) (Proc.devRef .tc main_v3) ((dats m 0 c).arrAt 4 cfg0.N)

theorem W₁_out (c : Dev nD) : W₁ m c (Proc.devRef .tc main_v3) = (dats m 0 c).arrAt 4 cfg0.N := by
  unfold W₁; exact Function.update_self _ _ _

theorem W₁_of_ne (c : Dev nD) (b : Ref sig .tc) (hb : b ≠ main_v3) : W₁ m c (Proc.devRef .tc b) = V m c b := by
  unfold W₁; exact Function.update_of_ne (fun e => hb (Proc.devRef_injective _ e)) _ _

/-- EXIT: the five windows' holdings at the final contents are the four buffers at the exit contents. -/
theorem arrBufs_of_arrays (c : Dev nD) :
    ((dats m 0 c).arrays ((dats m 0 c).arrAt · cfg0.N) : sProp 𝕄)
      ⊢ Pipeline.arrBufs (Ix := Unit) (Name := ℕ) (U := UR sig nD τ) (Lvl := ℕ) spec0 c (fun b => W₁ m c (Proc.devRef .tc b)) := by
  rw [arrBufs_chain, arrays_chain, W₁_out, W₁_of_ne m c main_v0 (by decide), W₁_of_ne m c main_v1 (by decide), W₁_of_ne m c main_v2 (by decide),
    (dats m 0 c).arrAt_in 0 rfl, (dats m 0 c).arrAt_in 1 rfl, (dats m 0 c).arrAt_in 2 rfl, (dats m 0 c).arrAt_in 3 rfl]
  iintro ⟨Ha, Hb, H1, H2, H3⟩
  isplitl [Ha Hb]
  · iapply (pointsTo_share (PosShare.mem_left_op_right fullShare)).2
    isplitl [Ha]; · iexact Ha
    iexact Hb
  isplitl [H1]; · iexact H1
  isplitl [H2]; · iexact H2
  iexact H3

theorem out_mem : main_v3 ∈ (Finset.univ.image (Pipeline.arrRef spec0) : Finset (Ref sig .tc)) := by
  rw [arrRefs_eq]; decide

/-- The buffers that bypass the region are no array: the exit contents are the entry contents there. -/
theorem rest_exit (c : Dev nD) :
    (Pipeline.unscopedRest (Ix := Unit) (Name := ℕ) (U := UR sig nD τ) (Lvl := ℕ) spec0 c (V m c) : sProp 𝕄)
      = Pipeline.unscopedRest spec0 c (fun b => W₁ m c (Proc.devRef .tc b)) := by
  unfold Pipeline.unscopedRest
  refine bigSep_congr fun b hb => ?_
  have e : W₁ m c (Proc.devRef .tc b) = V m c b :=
    W₁_of_ne m c b fun e => (Finset.mem_sdiff.mp hb).2 (e ▸ out_mem)
  simp only [e]

end Cert.Kernel.Hand

end
-- ==== Proof.KwRun.lean ====
/-
  The run of the whole program: three host operations, the kernel region, thirty-six host operations.

  Between the segments the core holds all its unscoped buffers whole, at a valuation: the launch contents; after the
  first three operations; at the region's exit (the result array as the write-backs left it, every other buffer as the
  region found it); after the last thirty-six operations. Beside them ride what the core owes (nothing) and its
  generator register. Every weakly fair execution terminates, and the final memory holds every unscoped buffer at the
  last valuation.
-/
import proofs.«113400_j70781061038765_1_alg».proof.Proof.KwShare
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- No core owes another anything: no level is assigned. -/
abbrev Lz : GSem nD τ sig → Finset Unit := fun _ => ∅
abbrev lvz : GSem nD τ sig → Unit → ℕ := fun _ _ => 0
/-- No prefetched table. -/
abbrev adm : (p : Fin 1) → (pcfgs (F := F) p).Adm := fun p => (cfgs p).toPCfg_adm

/-- What rides beside the buffers: what the core owes (nothing) and its generator register. -/
abbrev R (c : Dev nD) : sProp 𝕄 :=
  iprop((∃ W, owes (c : Thread nD τ) (0 : CellTallies nD τ sig Unit) W) ∗ ∃ r, prngReg c r)

/-- The three operations before the region, over all the unscoped buffers. -/
def seg0 : Pipeline.HostSeg (Name := ℕ) (U := UR sig nD τ) (pcfgs (F := F)) defs₀ Variants.none Lz lvz :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m) R

/-- The thirty-six operations after it, from the region's exit contents. -/
def seg1 : Pipeline.HostSeg (Name := ℕ) (U := UR sig nD τ) (pcfgs (F := F)) defs₀ Variants.none Lz lvz :=
  Pipeline.HostSeg.ofOps _ _ _ _ _ (Pipeline.ucRefs τ sig) hostOps1
    (fun op h => Pipeline.sub_ucRefs op ((List.forall_iff_forall_mem.mp hostOps1_sub) op h))
    (by intro _ h; (repeat (cases h with | head => rfl | tail _ h => ?_)); exact nomatch h) (W₁ m) R

set_option backward.isDefEq.respectTransparency.types false in
/-- The region: entered from all the unscoped buffers after the first operations — the four arrays into the pipeline
    (the features' buffer as two halves), the generator register into the invariant, every other buffer bypassing —,
    left with all the unscoped buffers at the exit contents. -/
def reg0 : Pipeline.RegionSeg (pcfgs (F := F)) adm (dats m) () defs₀ Variants.none Lz lvz 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ Lz lvz 0 fun _ _ => rfl
  pre c := iprop(StableHlo.held (c : Thread nD τ) (Pipeline.ucRefs τ sig) (StableHlo.after hostOps0 (V₀ m c)) ∗ R c)
  post c := iprop(StableHlo.held (c : Thread nD τ) (Pipeline.ucRefs τ sig) (W₁ m c) ∗ R c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [show StableHlo.held (c : Thread nD τ) (Pipeline.ucRefs τ sig) (StableHlo.after hostOps0 (V₀ m c)) = unscopedBufs c (V m c)
          from (Pipeline.unscopedBufs_held c _).symm,
      Pipeline.unscopedBufs_split₀ cfgs 0 winFacts₀0.arr_unscoped c (V m c)]
    iintro ⟨⟨⟨Hab, Hur⟩, ⟨HO, Hp⟩⟩, -, -⟩
    ihave Ha := (arrays_of_arrBufs m c) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hur
  hin c := by
    rw [show (dats m 0 c).Φ 0 = Pipeline.ΦA spec0 c from rfl]; unfold Pipeline.ΦA
    iintro ⟨Hp, -, Hr⟩
    isplitl [Hr] <;> iassumption
  hout c := by
    rw [Pipeline.ownSems0_none, show (dats m 0 c).Φ (Fin.last cfg0.N) = Pipeline.ΦA spec0 c from rfl]; unfold Pipeline.ΦA
    iintro ⟨Hr, Hp⟩
    isplitl [Hp]; · iexact Hp
    isplitr; · iempintro
    iexact Hr
  hexit c := by
    iintro ⟨Ha, HO, HY, HZ⟩
    ihave Hab := (arrBufs_of_arrays m c) $$ Ha
    imodintro
    isplitr [HO HY]
    · rw [← Pipeline.unscopedBufs_held c (W₁ m c), Pipeline.unscopedBufs_split₀ cfgs 0 winFacts₀0.arr_unscoped c (fun b => W₁ m c b),
        ← rest_exit m c]
      isplitl [Hab] <;> iassumption
    · isplitl [HO]
      · unfold Pipeline.Dat.owesAt Pipeline.owesWithin
        icases HO with ⟨%W, -, HO⟩; iexists W; iexact HO
      · iexact HY

/-- @main as the list of the three. -/
abbrev segs : List (Pipeline.Seg (pcfgs (F := F)) adm (dats m) () defs₀ Variants.none Lz lvz) :=
  [.host (seg0 m), .region (reg0 m), .host (seg1 m)]

/-- What the final memory holds: every unscoped buffer at the valuation after the last operations. -/
def QC (c : Dev nD) (s : MemSt nD τ sig (Elt F)) : Prop :=
  ∀ b ∈ Pipeline.ucRefs τ sig, s.mem ((c : Thread nD τ).1, b) = StableHlo.after hostOps1 (W₁ m c) b

set_option backward.isDefEq.respectTransparency.types false in
/-- At the compiled mesh, for any float values, from any memory with zero counters: every weakly fair execution of the
    program on the TensorCores terminates, and every final memory holds every unscoped buffer at the valuation after the
    last operations. -/
theorem run_main : θ_run defs (onTc (τ := τ) (main (F := F))) ⟨m, fun _ => 0, ρ⟩ (fun r => ∀ c : Dev nD, QC m c r.2) :=
  Pipeline.θ_run_regions_kit (pcfgs (F := F)) adm (dats m) () cellOf_inj emb₁ defs₀ Variants.none Lz lvz m ρ main (segs m)
    (fun c Q => by rw [main_segs adm (dats m) () Variants.none Lz lvz (seg0 m) (seg1 m) (reg0 m) rfl rfl c])
    (by simp only [Pipeline.Seg.pipes_host, Pipeline.Seg.pipes_region, Pipeline.Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => iprop(StableHlo.held (c : Thread nD τ) (Pipeline.ucRefs τ sig) (StableHlo.after hostOps1 (W₁ m c)) ∗ ∃ r, prngReg c r))
    (hch := ⟨fun _ => .rfl, fun _ => .rfl, fun _ => .rfl, fun c => by
      show iprop(StableHlo.held (c : Thread nD τ) (Pipeline.ucRefs τ sig) (StableHlo.after hostOps1 (W₁ m c)) ∗ R c) ⊢ _
      iintro ⟨Hh, HO, Hp⟩
      isplitr [HO]
      · isplitl [Hh] <;> iassumption
      · iexact HO⟩)
    (hinit := by
      refine Pipeline.initEach Lz lvz fun c => ?_
      rw [show unscopedBufs c (fun b => m ((c : Thread nD τ).loc b)) = StableHlo.held (c : Thread nD τ) (Pipeline.ucRefs τ sig) (V₀ m c)
        from Pipeline.unscopedBufs_held c (V₀ m c)]
      iintro ⟨⟨Hh, -, HO, -, Hp, -⟩, -⟩
      imodintro
      isplitl [Hh]; · iexact Hh
      isplitl [HO]; · iexists ∅; iexact HO
      iexists _; iexact Hp)
    (QY := QC m)
    (hfin := fun c s' => by
      iintro ⟨⟨Hh, -⟩, HSI⟩
      unfold StableHlo.held
      ihave Hr := (pointsTo_read_all (Pipeline.ucRefs τ sig) (fun b => ((c : Thread nD τ).1, b)) (StableHlo.after hostOps1 (W₁ m c)) s') $$ [Hh HSI]
      · isplitl [Hh] <;> iassumption
      icases Hr with ⟨%h, HSI⟩
      imodintro
      isplitr; · ipureintro; exact h
      iexact HSI)
    (hQ := fun _ h => h)

end Cert.Kernel.Hand

end
-- ==== Proof.KwFrame.lean ====
/-
  The frame of the whole program: the two arguments end as launched. Generic in the float values.
-/
import proofs.«113400_j70781061038765_1_alg».proof.Proof.KwRun

noncomputable section

namespace Cert.Kernel.HandFrame

open Cert.Kernel Cert.Kernel.Gen Cert.Kernel.Hand
open Idealize.ShloMosaic Idealize.ShloMosaic.TcCoe Idealize.SL.Sem

variable {F : FTy → Type} [FloatOps F]

variable (m : (ℓ : Loc nD τ sig) → Buf (Elt F) ℓ)

/-- An unscoped reference of the core is one of the buffers the run accounts for. -/
theorem mem_ucRefs (b : Ref sig .tc) (hb : b.isScoped = false) : Proc.devRef (τ := τ) .tc b ∈ Pipeline.ucRefs τ sig :=
  Finset.mem_filter.mpr ⟨StableHlo.devRef_mem_tcRefs b, by
    show ¬ b.isScoped = true
    rw [hb]; exact Bool.false_ne_true⟩

/-- The three operations before the region write none of the other buffers. -/
theorem not_written0 (b : Ref sig .tc) (hb : b ≠ main_v0 ∧ b ≠ main_v1 ∧ b ≠ main_v2) :
    ∀ op ∈ (hostOps0 (F := F)), Proc.devRef .tc b ∉ op.writes := by
  obtain ⟨h0, h1, h2⟩ := hb
  intro op hop
  simp only [List.mem_cons, List.mem_nil_iff, or_false] at hop
  rcases hop with rfl | rfl | rfl <;>
    simp only [StableHlo.unary_writes, StableHlo.reshape_writes, Finset.mem_singleton] <;>
    exact StableHlo.devRef_ne_of_ne ‹_›

/-- The thirty-six operations after the region write neither argument. -/
theorem not_written1 (b : Ref sig .tc) (hb : b = main_arg0 ∨ b = main_arg1) :
    ∀ op ∈ (hostOps1 (F := F)), Proc.devRef .tc b ∉ op.writes := by
  intro op hop
  simp only [List.mem_cons, List.mem_nil_iff, or_false] at hop
  rcases hb with rfl | rfl <;>
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;>
    simp only [StableHlo.nullary_writes, StableHlo.unary_writes, StableHlo.binary_writes, StableHlo.reshape_writes, Finset.mem_singleton] <;>
    exact StableHlo.devRef_ne_of_ne (by decide)

/-- Each argument ends as launched: no operation writes it, and the region's exit contents differ from its entry
    contents at the result array only. -/
theorem args_final (c : Dev nD) (s : MemSt nD τ sig (Elt F)) (h : QC m c s) (b : Ref sig .tc) (hb : b = main_arg0 ∨ b = main_arg1) :
    s.mem ((c.tc : Thread nD τ).loc b) = m ((c.tc : Thread nD τ).loc b) := by
  have hs : b.isScoped = false := by rcases hb with rfl | rfl <;> rfl
  have hne : b ≠ main_v3 := by rcases hb with rfl | rfl <;> decide
  have h012 : b ≠ main_v0 ∧ b ≠ main_v1 ∧ b ≠ main_v2 := by rcases hb with rfl | rfl <;> decide
  refine (h _ (mem_ucRefs b hs)).trans ?_
  rw [StableHlo.after_of_forall_not_mem hostOps1 (W₁ m c) (not_written1 b hb), W₁_of_ne m c b hne]
  exact StableHlo.after_of_forall_not_mem hostOps0 (V₀ m c) (not_written0 b h012)

/-- The frame: every weakly fair execution terminates with the two arguments unchanged. -/
theorem run_frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨args_final m c r.2 (h c) main_arg0 (Or.inl rfl), args_final m c r.2 (h c) main_arg1 (Or.inr rfl)⟩)
    (run_main m ρ)

end Cert.Kernel.HandFrame

end
-- ==== Proof.Spec.lean ====
/-
  The mathematics of the claim, stated once, with no program in sight.

  x : an 8192 x 128 array of extended reals (the features); t : 8192 integer labels.
  For a row r and a column j:
    lg r j    = (sum over k of x(r,k) * x(j,k)) * c        the scaled similarity, c the exact reciprocal of the
                                                           reference's temperature word (13421773 / 2^27)
    rmax r    = the maximum over j of lg r j (folded from bottom)
    offd r j  = 0 on the diagonal, 1 off it
    z r       = sum over j of exp(lg r j - rmax r) * offd r j
    pos r j   = 1 when the labels of r and j agree and r is not j, else 0
    s r       = sum over j of pos r j * lg r j ;  cnt r = sum over j of pos r j
  The four per-row numbers are the columns of an 8192 x 4 array (rowStats); the three results are
    loss   = w * ((0 + sum_r (s r - cnt r * (rmax r + log(z r + eps))) / (cnt r + eps)) / 8192)
    avgPos = (0 + sum_r cnt r) / 8192
    avgNeg = (0 + sum_r (8191 - cnt r)) / 8192
  with eps, w, 8192, 8191 the float words the programs print.
-/
import Idealize.ShloMosaic.PureOps.Ideal
import Idealize.ShloMosaic.Lib.ValueIdx

noncomputable section

namespace Cert.Spec

open Idealize.ShloMosaic Idealize.ShloMosaic.ValueIdx

abbrev X : Type := (⟨2, ![8192, 128]⟩ : Shape).Idx → EReal
abbrev T : Type := (⟨1, ![8192]⟩ : Shape).Idx → BitVec 32

/-- The scale: the exact reciprocal of the reference's temperature word. -/
def c : EReal := ((134217728 / 13421773 : ℝ) : EReal)

/-- The plain inner product of rows r and j. -/
def dotp (x : X) (r j : Fin 8192) : EReal := ∑ k : Fin 128, x (ix2 r k) * x (ix2 j k)

/-- The scaled similarity. -/
def lg (x : X) (r j : Fin 8192) : EReal := dotp x r j * c

/-- The row maximum, folded from bottom. -/
def rmax (x : X) (r : Fin 8192) : EReal := (Finset.univ : Finset (Fin 8192)).fold max (⊥ : EReal) (fun j => lg x r j)

/-- 0 on the diagonal, 1 off it. -/
def offd (r j : Fin 8192) : EReal := if r = j then 0 else 1

/-- The masked sum of exponentials of the shifted row. -/
def z (x : X) (r : Fin 8192) : EReal := ∑ j : Fin 8192, Ideal.exp (lg x r j - rmax x r) * offd r j

/-- 1 when the labels agree off the diagonal, else 0. -/
def pos (t : T) (r j : Fin 8192) : EReal := if t (ix1 r) = t (ix1 j) ∧ r ≠ j then 1 else 0

def s (x : X) (t : T) (r : Fin 8192) : EReal := ∑ j : Fin 8192, pos t r j * lg x r j

def cnt (t : T) (r : Fin 8192) : EReal := ∑ j : Fin 8192, pos t r j

/-- The four per-row numbers as the columns of an 8192 x 4 array: s, cnt, rmax, z. -/
def rowStats (x : X) (t : T) : (⟨2, ![8192, 4]⟩ : Shape).Idx → EReal := fun i =>
  if (i 1).val = 0 then s x t (i 0) else if (i 1).val = 1 then cnt t (i 0) else if (i 1).val = 2 then rmax x (i 0) else z x (i 0)

def eps : EReal := Ideal.ofBits .f32 0x1E3CE508#32
def n8192 : EReal := Ideal.ofBits .f32 0x46000000#32
def n8191 : EReal := Ideal.ofBits .f32 0x45FFF800#32
def wgt : EReal := Ideal.ofBits .f32 0xBFB6DB6E#32
def zero : EReal := Ideal.ofBits .f32 0x00000000#32

/-- The mean log-probability of the positives of row r. -/
def mlpp (x : X) (t : T) (r : Fin 8192) : EReal :=
  Ideal.div (s x t r - cnt t r * (rmax x r + Ideal.log (z x r + eps))) (cnt t r + eps)

def loss (x : X) (t : T) : EReal := wgt * Ideal.div (zero + ∑ r : Fin 8192, mlpp x t r) n8192
def avgPos (t : T) : EReal := Ideal.div (zero + ∑ r : Fin 8192, cnt t r) n8192
def avgNeg (t : T) : EReal := Ideal.div (zero + ∑ r : Fin 8192, (n8191 - cnt t r)) n8192

/-- The hypotheses under which the two programs agree: every feature is a real number, every label lies in 0..9. -/
def Fin_ (x : X) : Prop := ∀ i, ∃ r : ℝ, x i = (r : EReal)
def InRange (t : T) : Prop := ∀ i, 0 ≤ (t i).toInt ∧ (t i).toInt < 10

/-! ## The reference's own arrangement of the same numbers

  oh r a    = 1 when the label of r is a (a in 0..9), else 0          the one-hot rows
  mpf r j   = sum over a of oh r a * oh j a                           1 when the labels agree (in range)
  eye r j   = 1 on the diagonal, else 0
  mneg      = one - mpf ;  mp = mpf - eye ;  lmask = mp + mneg
  lgR r j   = (inner product of rows r and j) / D                     D the temperature word
  rmaxR r   = max over j of lgR r j, folded from the word of minus infinity
  shR r j   = lgR r j - rmaxR r
  ZR r      = zero + sum_j exp(shR r j) * lmask r j
  lpR r j   = shR r j - log(ZR r + eps)
  numR r    = zero + sum_j mp r j * lpR r j ;  denR r = zero + sum_j mp r j
-/

def one : EReal := Ideal.ofBits .f32 0x3F800000#32
def D : EReal := Ideal.ofBits .f32 0x3DCCCCCD#32
def negInf : EReal := Ideal.ofBits .f32 0xFF800000#32

def oh (t : T) (r : Fin 8192) (a : Fin 10) : EReal := if t (ix1 r) = BitVec.ofNat 32 a.val then 1 else 0
def mpf (t : T) (r j : Fin 8192) : EReal := ∑ a : Fin 10, oh t r a * oh t j a
def eye (r j : Fin 8192) : EReal := if r = j then 1 else 0
def mneg (t : T) (r j : Fin 8192) : EReal := one - mpf t r j
def mp (t : T) (r j : Fin 8192) : EReal := mpf t r j - eye r j
def lmask (t : T) (r j : Fin 8192) : EReal := mp t r j + mneg t r j
def lgR (x : X) (r j : Fin 8192) : EReal := Ideal.div (dotp x r j) D
def rmaxR (x : X) (r : Fin 8192) : EReal := (Finset.univ : Finset (Fin 8192)).fold max negInf (fun j => lgR x r j)
def shR (x : X) (r j : Fin 8192) : EReal := lgR x r j - rmaxR x r
def ZR (x : X) (t : T) (r : Fin 8192) : EReal := zero + ∑ j : Fin 8192, Ideal.exp (shR x r j) * lmask t r j
def lpR (x : X) (t : T) (r j : Fin 8192) : EReal := shR x r j - Ideal.log (ZR x t r + eps)
def numR (x : X) (t : T) (r : Fin 8192) : EReal := zero + ∑ j : Fin 8192, mp t r j * lpR x t r j
def denR (t : T) (r : Fin 8192) : EReal := zero + ∑ j : Fin 8192, mp t r j
def lossR (x : X) (t : T) : EReal := wgt * Ideal.div (zero + ∑ r : Fin 8192, Ideal.div (numR x t r) (denR t r + eps)) n8192
def avgPosR (t : T) : EReal := Ideal.div (zero + ∑ r : Fin 8192, denR t r) n8192
def avgNegR (t : T) : EReal := Ideal.div (zero + ∑ r : Fin 8192, (zero + ∑ j : Fin 8192, mneg t r j)) n8192

end Cert.Spec

end
-- ==== Proof.LibDotT.lean ====
/- A matrix product against a transposed right operand, [R, K] × [C, K] → [R, C] (both operands contracted along their second
   axis), into a zero accumulator, read at an index over the extended reals: entry (p, q) is the sum over k of
   lhs(p, k) · rhs(q, k). For any dimension record with these lists. Names no program. -/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

namespace Cert.LibDotT

open Idealize.ShloMosaic Idealize.ShloMosaic.ValueIdx

/-- The dimension numbers of a `[R, K] × [C, K] → [R, C]` product: the second axis of each operand is contracted. -/
abbrev dotT (R K C : Nat)
    (wf : DotDims.WF ⟨2, ![R, K]⟩ ⟨2, ![C, K]⟩ ⟨2, ![R, C]⟩ [1] [1] [0] [0] [] []) :
    DotDims ⟨2, ![R, K]⟩ ⟨2, ![C, K]⟩ ⟨2, ![R, C]⟩ where
  lhsContracting := [1]
  rhsContracting := [1]
  lhsNonContracting := [0]
  rhsNonContracting := [0]
  lhsBatch := []
  rhsBatch := []
  wf := wf

section
variable {R K C : Nat} (wf : DotDims.WF ⟨2, ![R, K]⟩ ⟨2, ![C, K]⟩ ⟨2, ![R, C]⟩ [1] [1] [0] [0] [] [])

/-- The left operand's index for output `(p, q)` and contraction coordinate `k` is `(p, k)`. -/
theorem dotT_lhsIdx (p : Fin R) (q : Fin C) (k : Fin K) :
    (dotT R K C wf).lhsIdx (ix2 p q) ((contrEquiv1 (dotT R K C wf) K rfl rfl).symm k) = ix2 p k := by
  have hk := contrEquiv1_symm_val (dotT R K C wf) K rfl rfl k
  funext a
  refine Fin.ext ?_
  match a with
  | ⟨0, _⟩ =>
    show ((dotT R K C wf).lhsIdx (ix2 p q) ((contrEquiv1 (dotT R K C wf) K rfl rfl).symm k) 0).val = p.val
    unfold DotDims.lhsIdx
    rw [dif_neg (show ¬(0 : Fin 2) ∈ (dotT R K C wf).lhsBatch from List.not_mem_nil),
      dif_pos (show (0 : Fin 2) ∈ (dotT R K C wf).lhsNonContracting from List.mem_singleton.mpr rfl)]
    rfl
  | ⟨1, _⟩ =>
    exact ((dotT R K C wf).lhsIdx_val_of_single (cl := (1 : Fin 2)) rfl (ix2 p q) _).trans hk

/-- The right operand's index for output `(p, q)` and contraction coordinate `k` is `(q, k)`. -/
theorem dotT_rhsIdx (p : Fin R) (q : Fin C) (k : Fin K) :
    (dotT R K C wf).rhsIdx (ix2 p q) ((contrEquiv1 (dotT R K C wf) K rfl rfl).symm k) = ix2 q k := by
  have hk := contrEquiv1_symm_val (dotT R K C wf) K rfl rfl k
  funext a
  refine Fin.ext ?_
  match a with
  | ⟨0, _⟩ =>
    show ((dotT R K C wf).rhsIdx (ix2 p q) ((contrEquiv1 (dotT R K C wf) K rfl rfl).symm k) 0).val = q.val
    unfold DotDims.rhsIdx
    rw [dif_neg (show ¬(0 : Fin 2) ∈ (dotT R K C wf).rhsBatch from List.not_mem_nil),
      dif_pos (show (0 : Fin 2) ∈ (dotT R K C wf).rhsNonContracting from List.mem_singleton.mpr rfl)]
    rfl
  | ⟨1, _⟩ =>
    exact ((dotT R K C wf).rhsIdx_val_of_single (cr := (1 : Fin 2)) rfl (ix2 p q) _).trans hk

/-- THE PRODUCT AGAINST THE TRANSPOSE INTO A ZERO ACCUMULATOR AT `(p, q)`: the sum over `k` of `lhs (p, k) * rhs (q, k)`. -/
theorem matmulT_zero_apply {φ₁ φ₂ : FTy} (prec : Option ContractPrecision)
    (lhs : FVec Ideal ⟨2, ![R, K]⟩ φ₁) (rhs : FVec Ideal ⟨2, ![C, K]⟩ φ₂) (p : Fin R) (q : Fin C) :
    FloatOps.matmul (dotT R K C wf) prec lhs rhs (constant ⟨2, ![R, C]⟩ .f32 0x00000000#32) (ix2 p q)
      = ∑ k : Fin K, lhs (ix2 p k) * rhs (ix2 q k) := by
  rw [Ideal.matmul_constant_zero_apply, ← Equiv.sum_comp (contrEquiv1 (dotT R K C wf) K rfl rfl).symm]
  refine Finset.sum_congr rfl fun k _ => ?_
  rw [dotT_lhsIdx wf p q k, dotT_rhsIdx wf p q k]

end

end Cert.LibDotT

end
-- ==== Proof.KerLogits.lean ====
/-
  The kernel's scaled similarities at an index.

  The block of 256 query rows is multiplied against all 8192 key rows, both contracted along their 128 features, into a
  zero accumulator; the product is then scaled by the named constant, the exact reciprocal of the temperature.  At
  (p, j) this is (sum over k of q(p,k) * key(j,k)) * c.
-/
import proofs.«113400_j70781061038765_1_alg».proof.Proof.Gen.KernelIdeal.Skeleton
import proofs.«113400_j70781061038765_1_alg».proof.Proof.Spec
import proofs.«113400_j70781061038765_1_alg».proof.Proof.LibDotT
import Idealize.ShloMosaic.Lib.ValueIdx
import Idealize.ShloMosaic.Lib.Pipeline.Value
import Idealize.ShloMosaic.PureOps.Ideal
import Idealize.ShloMosaic.PureOps.Ideal.Laws
import Idealize.ShloMosaic.PureOps.IdealRules

noncomputable section

namespace Cert.KernelSide

open Idealize.ShloMosaic Idealize.ShloMosaic.ValueIdx
open Cert.KernelIdeal Cert.KernelIdeal.Gen

/-- The named scale is the exact reciprocal of the temperature. -/
theorem inv_temp_eq :
    Named.named (F := Ideal) Cert.KernelIdeal.κ "inv_temp" (φ := .f32) 0x41200000#32 = Cert.Spec.c :=
  IdealRules.named_const.ideal_named_scalar _ _ _ _ rfl

/-- The product against the transposed keys into a zero accumulator, at (p, j). -/
theorem matmul_apply (lhs : FVec Ideal S256x128 .bf16) (rhs : FVec Ideal S8192x128 .bf16) (p : Fin 256) (j : Fin 8192) :
    FloatOps.matmul dot_S256x128_S8192x128_S256x8192_1_1_0_0_n_n none lhs rhs
        (constant (F := Ideal) S256x8192 .f32 0x00000000#32) (ix2 p j)
      = ∑ k : Fin 128, lhs (ix2 p k) * rhs (ix2 j k) :=
  Cert.LibDotT.matmulT_zero_apply (R := 256) (K := 128) (C := 8192)
    Facts₀.dot_S256x128_S8192x128_S256x8192_1_1_0_0_n_n_wf none lhs rhs p j

/-- The scaled similarities at (p, j). -/
theorem pay2_apply (v0 : Vec Ideal S256x128 .bf16) (v2 : Vec Ideal S8192x128 .bf16) (p : Fin 256) (j : Fin 8192) :
    k0_pay2 (F := Ideal) v0 v2 (ix2 p j) = (∑ k : Fin 128, v0 (ix2 p k) * v2 (ix2 j k)) * Cert.Spec.c := by
  unfold k0_pay2
  rw [shapeCast_self, shapeCast_self]
  refine (mulf_apply _ _ _).trans ?_
  rw [broadcast_apply, inv_temp_eq]
  exact congrArg (· * Cert.Spec.c) (matmul_apply v0 v2 p j)

end Cert.KernelSide

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.KerMasks.lean ====
/-
  The kernel's two masks at an index.

  The diagonal test compares the global row number (block number times 256 plus the row inside the block) with the
  column number, both as 32-bit words; nothing wraps since both are below 8192.  The positive mask is 1 where the two
  labels agree off the diagonal and 0 elsewhere.
-/
import proofs.«113400_j70781061038765_1_alg».proof.Proof.Gen.KernelIdeal.Skeleton
import proofs.«113400_j70781061038765_1_alg».proof.Proof.Spec
import proofs.«113400_j70781061038765_1_alg».proof.Proof.LibColumn
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws
import Idealize.ShloMosaic.Lib.IdealHost

noncomputable section

namespace Cert.KernelSide

open Idealize.ShloMosaic Idealize.ShloMosaic.ValueIdx
open Cert.KernelIdeal Cert.KernelIdeal.Gen

/-- Two numbers below 2^32 are equal as 32-bit words exactly when they are equal. -/
theorem ofNat32_eq_iff (m n : ℕ) (hm : m < 4294967296) (hn : n < 4294967296) :
    BitVec.ofNat 32 m = BitVec.ofNat 32 n ↔ m = n := by
  constructor
  · intro h
    have := congrArg BitVec.toNat h
    simp only [BitVec.toNat_ofNat] at this
    omega
  · intro h; rw [h]

/-- The global row number as a word: block number times 256 plus the row inside the block. -/
theorem row_word (a b : ℕ) :
    IntOp.addi (Scalar.muli (BitVec.ofNat 32 a) 256#32) (BitVec.ofNat 32 b) = BitVec.ofNat 32 (a * 256 + b) := by
  show BitVec.ofNat 32 a * 256#32 + BitVec.ofNat 32 b = _
  apply BitVec.eq_of_toNat_eq
  simp only [BitVec.toNat_add, BitVec.toNat_mul, BitVec.toNat_ofNat]
  omega

/-- The equality test of two words, as a one-bit mask. -/
theorem cmpi_eq_ite (x y : BitVec 32) : IntOp.cmpi .eq x y = if x = y then 1#1 else 0#1 := by
  unfold IntOp.cmpi
  by_cases h : x = y
  · rw [if_pos h, h]; simp
  · rw [if_neg h]
    have hb : (x == y) = false := by simpa using h
    rw [hb]; rfl

/-- The diagonal test at (p, j): the global row number of p against j. -/
theorem pay3_apply (i : grid0.Coords) (p : Fin 256) (j : Fin 8192) :
    k0_pay3 i (ix2 p j) = if (i 0).val * 256 + p.val = j.val then 1#1 else 0#1 := by
  have hi : (i 0).val < 32 := (i 0).isLt
  unfold k0_pay3
  show IntOp.cmpi .eq
      (broadcastTo S256x8192 (addi (broadcast S256x1 (Scalar.muli (BitVec.ofNat 32 (i 0).val) 256#32))
        (iota .tc S256x1 32 [0] Facts₀.iota_S256x1_d0_w32)) Facts₀.broadcasts_S256x1_S256x8192 (ix2 p j))
      (broadcastTo S256x8192 (iota .tc S1x8192 32 [1] Facts₀.iota_S1x8192_d1_w32) Facts₀.broadcasts_S1x8192_S256x8192 (ix2 p j)) = _
  rw [Cert.LibColumn.broadcastTo_a1_ab_apply, broadcastTo_1b_ab_apply]
  show IntOp.cmpi .eq (IntOp.addi (Scalar.muli (BitVec.ofNat 32 (i 0).val) 256#32)
      (iota .tc S256x1 32 [0] Facts₀.iota_S256x1_d0_w32 (ix2 p (0 : Fin 1))))
      (iota .tc S1x8192 32 [1] Facts₀.iota_S1x8192_d1_w32 (ix2 (0 : Fin 1) j)) = _
  rw [iota_single_apply, iota_single_apply]
  show IntOp.cmpi .eq (IntOp.addi (Scalar.muli (BitVec.ofNat 32 (i 0).val) 256#32) (BitVec.ofNat 32 p.val))
      (BitVec.ofNat 32 j.val) = _
  rw [row_word, cmpi_eq_ite]
  have hp := p.isLt
  have hj := j.isLt
  by_cases h : (i 0).val * 256 + p.val = j.val
  · rw [if_pos h, if_pos (by rw [h])]
  · rw [if_neg h, if_neg (fun e => h ((ofNat32_eq_iff _ _ (by omega) (by omega)).mp e))]

/-- The off-diagonal weight at (p, j): 0 on the diagonal, 1 off it. -/
theorem offdiag_apply (i : grid0.Coords) (p : Fin 256) (j : Fin 8192) :
    select (k0_pay3 i) (broadcast S256x8192 (Scalar.ofBits (F := Ideal) .f32 0x00000000#32))
        (broadcast S256x8192 (Scalar.ofBits (F := Ideal) .f32 0x3F800000#32)) (ix2 p j)
      = if (i 0).val * 256 + p.val = j.val then (0 : EReal) else 1 := by
  rw [select_apply, pay3_apply, broadcast_apply, broadcast_apply]
  show Scalar.select _ (Ideal.ofBits .f32 0x00000000#32) (Ideal.ofBits .f32 0x3F800000#32) = _
  rw [Ideal.ofBits_zero_f32, Ideal.ofBits_one_f32]
  by_cases h : (i 0).val * 256 + p.val = j.val
  · rw [if_pos h, if_pos h]; exact select_one _ _
  · rw [if_neg h, if_neg h]; exact select_zero _ _

/-- The positive mask at (p, j): 1 where the labels agree off the diagonal, else 0. -/
theorem pay6_apply (i : grid0.Coords) (v7 : Vec Ideal S256x1 .i32) (v9 : Vec Ideal S1x8192 .i32) (p : Fin 256) (j : Fin 8192) :
    k0_pay6 (F := Ideal) i v7 v9 (ix2 p j)
      = if v7 (ix2 p (0 : Fin 1)) = v9 (ix2 (0 : Fin 1) j) ∧ (i 0).val * 256 + p.val ≠ j.val then (1 : EReal) else 0 := by
  unfold k0_pay6
  rw [shapeCast_self, shapeCast_self]
  refine (select_apply _ _ _ _).trans ?_
  rw [broadcast_apply, broadcast_apply]
  show Scalar.select (IntOp.andi
        (IntOp.cmpi .eq (broadcastTo S256x8192 v7 Facts₀.broadcasts_S256x1_S256x8192 (ix2 p j))
          (broadcastTo S256x8192 v9 Facts₀.broadcasts_S1x8192_S256x8192 (ix2 p j)))
        (IntOp.xori (k0_pay3 i (ix2 p j)) 1#1))
      (Ideal.ofBits .f32 0x3F800000#32) (Ideal.ofBits .f32 0x00000000#32) = _
  rw [Cert.LibColumn.broadcastTo_a1_ab_apply, broadcastTo_1b_ab_apply, pay3_apply, cmpi_eq_ite,
    Ideal.ofBits_zero_f32, Ideal.ofBits_one_f32]
  have e11 : IntOp.andi (1#1) (IntOp.xori 1#1 1#1) = 0#1 := by decide
  have e10 : IntOp.andi (1#1) (IntOp.xori 0#1 1#1) = 1#1 := by decide
  have e01 : IntOp.andi (0#1) (IntOp.xori 1#1 1#1) = 0#1 := by decide
  have e00 : IntOp.andi (0#1) (IntOp.xori 0#1 1#1) = 0#1 := by decide
  by_cases h1 : v7 (ix2 p (0 : Fin 1)) = v9 (ix2 (0 : Fin 1) j)
  · by_cases h2 : (i 0).val * 256 + p.val = j.val
    · have hc : ¬(v7 (ix2 p (0 : Fin 1)) = v9 (ix2 (0 : Fin 1) j) ∧ (i 0).val * 256 + p.val ≠ j.val) := fun h => h.2 h2
      rw [if_pos h1, if_pos h2, if_neg hc, e11]
      exact select_zero _ _
    · have hc : v7 (ix2 p (0 : Fin 1)) = v9 (ix2 (0 : Fin 1) j) ∧ (i 0).val * 256 + p.val ≠ j.val := ⟨h1, h2⟩
      rw [if_pos h1, if_neg h2, if_pos hc, e10]
      exact select_one _ _
  · have hc : ¬(v7 (ix2 p (0 : Fin 1)) = v9 (ix2 (0 : Fin 1) j) ∧ (i 0).val * 256 + p.val ≠ j.val) := fun h => h1 h.1
    rw [if_neg h1, if_neg hc]
    by_cases h2 : (i 0).val * 256 + p.val = j.val
    · rw [if_pos h2, e01]; exact select_zero _ _
    · rw [if_neg h2, e00]; exact select_zero _ _

end Cert.KernelSide

end
-- ==== Proof.LibRowReduce.lean ====
/- Row reductions of a two-axis array kept as a column and repeated along the rows, read at an index over the extended reals:
   the lane sum of row p is the plain sum over the row, the lane maximum the fold of max over the row from the initial word; a
   length-a vector cast to an a × 1 column and broadcast to a × b reads, at (p, q), the vector's entry p; a 1 × 1 array broadcast
   to a × b reads its one entry everywhere. Names no program. -/
import proofs.«113400_j70781061038765_1_alg».proof.Proof.LibColumn
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRowReduce

open Idealize.ShloMosaic Idealize.ShloMosaic.ValueIdx

variable {a b : ℕ}

/-- Result index p of a reduction along the second axis, with the dropped coordinate k put back, is (p, k). -/
theorem lift_row (h : (⟨2, ![a, b]⟩ : Shape).Reduces [(1 : Fin 2)] ⟨1, ![a]⟩) (p : Fin a) (k : Fin b) :
    h.lift (ix1 p) k = ix2 p k := by
  funext c
  apply Fin.ext
  match c with
  | ⟨0, _⟩ => rfl
  | ⟨1, _⟩ => rfl

/-- The lane sum of row p. -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The lane maximum of row p: max folded over the row from the initial word. -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (FloatOps.ofBits (F := Ideal) φ acc) (fun k => src (ix2 p k)) :=
  (Ideal.multiReduction_maximumf_single src acc h hφ hacc (ix1 p)).trans
    (congrArg (fun f => (Finset.univ : Finset (Fin b)).fold max (FloatOps.ofBits (F := Ideal) φ acc) f)
      (funext fun k => congrArg src (lift_row h p k)))

variable {α : Type}

/-- A vector kept as a column and repeated along the rows reads, at (p, q), its entry p. -/
theorem column_repeat_apply {b' : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b']⟩) (p : Fin a) (q : Fin b') :
    broadcastTo ⟨2, ![a, b']⟩ (shapeCast ⟨2, ![a, 1]⟩ v hc) hb (ix2 p q) = v (ix1 p) :=
  (Cert.LibColumn.broadcastTo_a1_ab_apply _ hb p q).trans (Cert.LibColumn.shapeCast_a_a1_apply v hc p 0)

/-- A 1 × 1 array repeated over a × b reads its one entry everywhere. -/
theorem broadcastTo_11_ab_apply (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

end Cert.LibRowReduce

end
-- ==== Proof.LibConcat4.lean ====
/-
  A concatenation of four pieces of one shape, read at an index.

  Four arrays of one shape laid end to end along an axis: the element at an index whose coordinate on that axis is c
  comes from piece c / K, K the pieces' extent on the axis, at the index with the same coordinates off the axis and
  c % K on it.
-/
import Idealize.ShloMosaic.Lib.Pipeline.Value

namespace Cert.LibConcat4

open Idealize.ShloMosaic

variable {α : Type}

/-- Four pieces of one shape s joined along axis a of t, read at j: the piece g = (j a) / K at the index i that agrees
    with j off the axis and has (j a) % K on it. -/
theorem concat4_apply {t s : Shape} (a : Fin t.rank) (x0 x1 x2 x3 : s.Idx → α)
    (h : Shape.Concatenates [s, s, s, s] t a) (hr : s.rank = t.rank) (K : Nat) (hK : s.size (a.cast hr.symm) = K)
    (j : t.Idx) (g : Fin 4) (hg : (j a).val / K = g.val) (i : s.Idx) (hia : (i (a.cast hr.symm)).val = (j a).val % K)
    (hi : ∀ b : Fin s.rank, b.cast hr ≠ a → (i b).val = (j (b.cast hr)).val) :
    concatenate t a [⟨s, x0⟩, ⟨s, x1⟩, ⟨s, x2⟩, ⟨s, x3⟩] h j = (![x0, x1, x2, x3] g) i :=
  concatenate_ofFn_apply a ![x0, x1, x2, x3] h hr K hK j g hg i hia hi

end Cert.LibConcat4
-- ==== Proof.KerRows.lean ====
/-
  The kernel's row reductions and the stored block at an index.

  Each of the 256 rows of the block is reduced along its 8192 columns: the maximum of the scaled similarities (folded
  from bottom), the sum of the exponentials of the shifted similarities weighted by the off-diagonal mask, the sum of
  the positive mask, and the sum of the positive mask times the similarities.  The four per-row numbers are kept as
  columns and laid side by side into the 256 x 4 block.
-/
import proofs.«113400_j70781061038765_1_alg».proof.Proof.Gen.KernelIdeal.Skeleton
import proofs.«113400_j70781061038765_1_alg».proof.Proof.LibColumn
import proofs.«113400_j70781061038765_1_alg».proof.Proof.LibRowReduce
import proofs.«113400_j70781061038765_1_alg».proof.Proof.LibConcat4
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.KernelSide

open Idealize.ShloMosaic Idealize.ShloMosaic.ValueIdx
open Cert.KernelIdeal Cert.KernelIdeal.Gen

/-- The word of minus infinity denotes bottom. -/
theorem negInf_eq : FloatOps.ofBits (F := Ideal) .f32 0xFF800000#32 = (⊥ : EReal) := by
  show Ideal.ofBits .f32 0xFF800000#32 = ⊥
  simp [Ideal.ofBits, Ideal.ieee]

/-- The row maximum at row p: max folded over the row from bottom. -/
theorem pay4_apply (v0 : Vec Ideal S256x128 .bf16) (v2 : Vec Ideal S8192x128 .bf16) (p : Fin 256) (u : Fin 1) :
    k0_pay4 (F := Ideal) v0 v2 (ix2 p u)
      = (Finset.univ : Finset (Fin 8192)).fold max (⊥ : EReal) (fun j => k0_pay2 (F := Ideal) v0 v2 (ix2 p j)) := by
  unfold k0_pay4
  refine (Cert.LibColumn.shapeCast_a_a1_apply _ _ p u).trans ?_
  refine (Cert.LibRowReduce.rowMax_apply (a := 256) (b := 8192) (k0_pay2 (F := Ideal) v0 v2) 0xFF800000#32
    Facts₀.reduces_S256x8192_S256 (.inl rfl) rfl p).trans ?_
  rw [negInf_eq]

/-- The masked sum of exponentials at row p. -/
theorem pay5_apply (i : grid0.Coords) (v0 : Vec Ideal S256x128 .bf16) (v2 : Vec Ideal S8192x128 .bf16) (p : Fin 256) (u : Fin 1) :
    k0_pay5 (F := Ideal) i v0 v2 (ix2 p u)
      = ∑ j : Fin 8192, Ideal.exp (k0_pay2 (F := Ideal) v0 v2 (ix2 p j) - k0_pay4 (F := Ideal) v0 v2 (ix2 p (0 : Fin 1)))
          * select (k0_pay3 i) (broadcast S256x8192 (Scalar.ofBits (F := Ideal) .f32 0x00000000#32))
              (broadcast S256x8192 (Scalar.ofBits (F := Ideal) .f32 0x3F800000#32)) (ix2 p j) := by
  unfold k0_pay5
  refine (Cert.LibColumn.shapeCast_a_a1_apply _ _ p u).trans ?_
  refine (Cert.LibRowReduce.rowSum_apply (a := 256) (b := 8192) _ 0x00000000#32
    Facts₀.reduces_S256x8192_S256 (.inl rfl) rfl p).trans ?_
  refine Finset.sum_congr rfl fun j _ => ?_
  refine (mulf_apply _ _ _).trans ?_
  refine congrArg (· * _) ?_
  show Ideal.exp (k0_pay2 (F := Ideal) v0 v2 (ix2 p j)
      - broadcastTo S256x8192 (k0_pay4 (F := Ideal) v0 v2) Facts₀.broadcasts_S256x1_S256x8192 (ix2 p j)) = _
  rw [Cert.LibColumn.broadcastTo_a1_ab_apply]

/-- The sum of the positive mask times the similarities at row p. -/
theorem pay7_apply (i : grid0.Coords) (v0 : Vec Ideal S256x128 .bf16) (v2 : Vec Ideal S8192x128 .bf16)
    (v7 : Vec Ideal S256x1 .i32) (v9 : Vec Ideal S1x8192 .i32) (p : Fin 256) :
    k0_pay7 (F := Ideal) i v0 v2 v7 v9 (ix1 p)
      = ∑ j : Fin 8192, k0_pay6 (F := Ideal) i v7 v9 (ix2 p j) * k0_pay2 (F := Ideal) v0 v2 (ix2 p j) := by
  unfold k0_pay7
  refine (Cert.LibRowReduce.rowSum_apply (a := 256) (b := 8192) _ 0x00000000#32
    Facts₀.reduces_S256x8192_S256 (.inl rfl) rfl p).trans ?_
  exact Finset.sum_congr rfl fun j _ => mulf_apply _ _ _

/-- The stored block at (p, q): the q-th of the four per-row numbers of row p. -/
theorem pay1_apply (v23 v32 : FVec Ideal S256x1 .f32) (v37 : FVec Ideal S256x8192 .f32) (v39 : FVec Ideal S256 .f32)
    (p : Fin 256) (q : Fin 4) :
    k0_pay1 (F := Ideal) v23 v32 v37 v39 (ix2 p q)
      = (![v39 (ix1 p), ∑ j : Fin 8192, v37 (ix2 p j), v23 (ix2 p (0 : Fin 1)), v32 (ix2 p (0 : Fin 1))] : Fin 4 → EReal) q := by
  unfold k0_pay1
  refine (Cert.LibConcat4.concat4_apply (t := S256x4) (s := S256x1) (1 : Fin 2) _ _ _ _
    Facts₀.concatenates_S256x1_S256x1_S256x1_S256x1_S256x4_d1 rfl 1 rfl (ix2 p q) q (Nat.div_one _)
    (ix2 p (0 : Fin 1)) (Nat.mod_one _).symm ?_).trans ?_
  · intro b hb
    match b with
    | ⟨0, _⟩ => rfl
    | ⟨1, _⟩ => exact absurd rfl hb
  · match q with
    | ⟨0, _⟩ => exact Cert.LibColumn.shapeCast_a_a1_apply _ _ p 0
    | ⟨1, _⟩ =>
      show shapeCast S256x1 (multiReduction (F := Ideal) .add [1] S256 v37 0x00000000#32
          Facts₀.reduces_S256x8192_S256 (.inl rfl) rfl) Facts₀.shapeCasts_S256_S256x1 (ix2 p (0 : Fin 1))
        = ∑ j : Fin 8192, v37 (ix2 p j)
      refine (Cert.LibColumn.shapeCast_a_a1_apply _ _ p 0).trans ?_
      exact Cert.LibRowReduce.rowSum_apply (a := 256) (b := 8192) v37 0x00000000#32
        Facts₀.reduces_S256x8192_S256 (.inl rfl) rfl p
    | ⟨2, _⟩ => rfl
    | ⟨3, _⟩ => rfl

end Cert.KernelSide

end
-- ==== Proof.KerBlock.lean ====
/-
  The kernel's stored block is the block of the four per-row numbers.

  With the query block being rows i*256 .. i*256+255 of the features, the keys all the features, the label column the
  labels of those rows and the label row all the labels, the block stored at grid point i reads, at (p, q), the q-th
  of s, cnt, rmax, z of the global row r = i*256 + p.
-/
import proofs.«113400_j70781061038765_1_alg».proof.Proof.Gen.KernelIdeal.Skeleton
import proofs.«113400_j70781061038765_1_alg».proof.Proof.Spec
import proofs.«113400_j70781061038765_1_alg».proof.Proof.KerLogits
import proofs.«113400_j70781061038765_1_alg».proof.Proof.KerMasks
import proofs.«113400_j70781061038765_1_alg».proof.Proof.KerRows
import Idealize.ShloMosaic.Lib.ValueIdx
import Idealize.ShloMosaic.PureOps.Ideal

noncomputable section

namespace Cert.KernelSide

open Idealize.ShloMosaic Idealize.ShloMosaic.ValueIdx
open Cert.KernelIdeal Cert.KernelIdeal.Gen

section
variable (i : Cert.KernelIdeal.grid0.Coords) (x : Cert.Spec.X) (t : Cert.Spec.T)
  (v0 : Vec Ideal S256x128 .bf16) (v2 : Vec Ideal S8192x128 .bf16) (v7 : Vec Ideal S256x1 .i32) (v9 : Vec Ideal S1x8192 .i32)

/-- The scaled similarity of block row p against column j is that of global row r. -/
theorem pay2_eq_lg
    (h0 : ∀ (p : Fin 256) (k : Fin 128) (r : Fin 8192), r.val = (i 0).val * 256 + p.val → v0 (ix2 p k) = x (ix2 r k))
    (h2 : ∀ (j : Fin 8192) (k : Fin 128), v2 (ix2 j k) = x (ix2 j k))
    (p : Fin 256) (r : Fin 8192) (hr : r.val = (i 0).val * 256 + p.val) (j : Fin 8192) :
    k0_pay2 (F := Ideal) v0 v2 (ix2 p j) = Cert.Spec.lg x r j := by
  rw [pay2_apply]
  unfold Cert.Spec.lg Cert.Spec.dotp
  refine congrArg (· * Cert.Spec.c) (Finset.sum_congr rfl fun k _ => ?_)
  rw [h0 p k r hr, h2 j k]

/-- The positive mask of block row p against column j is that of global row r. -/
theorem pay6_eq_pos
    (h7 : ∀ (p : Fin 256) (r : Fin 8192), r.val = (i 0).val * 256 + p.val → v7 (ix2 p 0) = t (ix1 r))
    (h9 : ∀ j : Fin 8192, v9 (ix2 0 j) = t (ix1 j))
    (p : Fin 256) (r : Fin 8192) (hr : r.val = (i 0).val * 256 + p.val) (j : Fin 8192) :
    k0_pay6 (F := Ideal) i v7 v9 (ix2 p j) = Cert.Spec.pos t r j := by
  rw [pay6_apply, h7 p r hr, h9 j]
  unfold Cert.Spec.pos
  have e : ((i 0).val * 256 + p.val ≠ j.val) ↔ r ≠ j := by
    rw [← hr]; exact ⟨fun h e => h (congrArg Fin.val e), fun h e => h (Fin.ext e)⟩
  by_cases hc : t (ix1 r) = t (ix1 j) ∧ r ≠ j
  · rw [if_pos hc, if_pos ⟨hc.1, e.mpr hc.2⟩]
  · rw [if_neg hc, if_neg (fun h => hc ⟨h.1, e.mp h.2⟩)]

/-- The off-diagonal weight of block row p against column j is that of global row r. -/
theorem offdiag_eq_offd (p : Fin 256) (r : Fin 8192) (hr : r.val = (i 0).val * 256 + p.val) (j : Fin 8192) :
    (if (i 0).val * 256 + p.val = j.val then (0 : EReal) else 1) = Cert.Spec.offd r j := by
  unfold Cert.Spec.offd
  rw [← hr]
  by_cases hc : r = j
  · rw [if_pos hc, if_pos (congrArg Fin.val hc)]
  · rw [if_neg hc, if_neg (fun h => hc (Fin.ext h))]

variable
    (h0 : ∀ (p : Fin 256) (k : Fin 128) (r : Fin 8192), r.val = (i 0).val * 256 + p.val → v0 (ix2 p k) = x (ix2 r k))
    (h2 : ∀ (j : Fin 8192) (k : Fin 128), v2 (ix2 j k) = x (ix2 j k))
    (h7 : ∀ (p : Fin 256) (r : Fin 8192), r.val = (i 0).val * 256 + p.val → v7 (ix2 p 0) = t (ix1 r))
    (h9 : ∀ j : Fin 8192, v9 (ix2 0 j) = t (ix1 j))
    (p : Fin 256) (r : Fin 8192) (hr : r.val = (i 0).val * 256 + p.val)

include h0 h2 hr in
/-- Column 2: the row maximum. -/
theorem col_rmax : k0_pay4 (F := Ideal) v0 v2 (ix2 p (0 : Fin 1)) = Cert.Spec.rmax x r := by
  rw [pay4_apply]
  unfold Cert.Spec.rmax
  exact congrArg ((Finset.univ : Finset (Fin 8192)).fold max (⊥ : EReal)) (funext (pay2_eq_lg i x v0 v2 h0 h2 p r hr))

include h0 h2 hr in
/-- Column 3: the masked sum of exponentials. -/
theorem col_z : k0_pay5 (F := Ideal) i v0 v2 (ix2 p (0 : Fin 1)) = Cert.Spec.z x r := by
  rw [pay5_apply]
  unfold Cert.Spec.z
  refine Finset.sum_congr rfl fun j _ => ?_
  rw [offdiag_apply, offdiag_eq_offd i p r hr j, pay2_eq_lg i x v0 v2 h0 h2 p r hr j, col_rmax i x v0 v2 h0 h2 p r hr]

include h7 h9 hr in
/-- Column 1: the number of positives. -/
theorem col_cnt : (∑ j : Fin 8192, k0_pay6 (F := Ideal) i v7 v9 (ix2 p j)) = Cert.Spec.cnt t r := by
  unfold Cert.Spec.cnt
  exact Finset.sum_congr rfl fun j _ => pay6_eq_pos i t v7 v9 h7 h9 p r hr j

include h0 h2 h7 h9 hr in
/-- Column 0: the sum of the positives' similarities. -/
theorem col_s : k0_pay7 (F := Ideal) i v0 v2 v7 v9 (ix1 p) = Cert.Spec.s x t r := by
  rw [pay7_apply]
  unfold Cert.Spec.s
  refine Finset.sum_congr rfl fun j _ => ?_
  rw [pay6_eq_pos i t v7 v9 h7 h9 p r hr j, pay2_eq_lg i x v0 v2 h0 h2 p r hr j]

end

/-- THE STORED BLOCK AT (p, q) is the q-th per-row number of global row r = i*256 + p. -/
theorem block_eq (i : Cert.KernelIdeal.grid0.Coords) (x : Cert.Spec.X) (t : Cert.Spec.T)
    (v0 : Vec Ideal S256x128 .bf16) (v2 : Vec Ideal S8192x128 .bf16) (v7 : Vec Ideal S256x1 .i32) (v9 : Vec Ideal S1x8192 .i32)
    (h0 : ∀ (p : Fin 256) (k : Fin 128) (r : Fin 8192), r.val = (i 0).val * 256 + p.val → v0 (ix2 p k) = x (ix2 r k))
    (h2 : ∀ (j : Fin 8192) (k : Fin 128), v2 (ix2 j k) = x (ix2 j k))
    (h7 : ∀ (p : Fin 256) (r : Fin 8192), r.val = (i 0).val * 256 + p.val → v7 (ix2 p 0) = t (ix1 r))
    (h9 : ∀ j : Fin 8192, v9 (ix2 0 j) = t (ix1 j))
    (p : Fin 256) (q : Fin 4) (r : Fin 8192) (hr : r.val = (i 0).val * 256 + p.val) :
    k0_pay1 (F := Ideal) (k0_pay4 (F := Ideal) v0 v2) (k0_pay5 (F := Ideal) i v0 v2) (k0_pay6 (F := Ideal) i v7 v9)
        (k0_pay7 (F := Ideal) i v0 v2 v7 v9) (ix2 p q)
      = Cert.Spec.rowStats x t (ix2 r q) := by
  rw [pay1_apply, col_s i x t v0 v2 v7 v9 h0 h2 h7 h9 p r hr, col_cnt i t v7 v9 h7 h9 p r hr,
    col_rmax i x v0 v2 h0 h2 p r hr, col_z i x v0 v2 h0 h2 p r hr]
  unfold Cert.Spec.rowStats
  match q with
  | ⟨0, _⟩ => rfl
  | ⟨1, _⟩ => rfl
  | ⟨2, _⟩ => rfl
  | ⟨3, _⟩ => rfl

end Cert.KernelSide

end
-- ==== Proof.KiFinalBlocks.lean ====
/-
  The four input blocks at a grid point, read at an index.

  When the region is entered the feature array has been converted to the narrower float format, which over the
  extended reals changes nothing, and the labels have been laid out once as a column and once as a row.  Window 0's
  block at point t is rows t*256 .. t*256+255 of the features, window 1's is all the features, window 2's is the labels
  of those rows as a column, window 3's is all the labels as a row.
-/
import proofs.«113400_j70781061038765_1_alg».proof.Proof.KiData
import proofs.«113400_j70781061038765_1_alg».proof.Proof.Spec
import proofs.«113400_j70781061038765_1_alg».proof.Proof.KerBlock
import proofs.«113400_j70781061038765_1_alg».proof.Proof.LibColumn
import Idealize.ShloMosaic.Lib.ValueLayout
import Idealize.ShloMosaic.Lib.Pipeline.Value
import Idealize.ShloMosaic.Lib.StableHlo.Run

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)
open Idealize.ShloMosaic.StableHlo

variable (m : (ℓ : Loc nD τ sig) → Buf (Elt Ideal) ℓ) (c : Dev nD)

/-- The features as the region finds them: the argument itself. -/
theorem V_features : (V m c main_v0 : S8192x128.Idx → EReal) = m ((c : Thread nD τ).loc main_arg0) := by
  dsimp only [V]; after_results; rfl

/-- The label column as the region finds it: the argument laid out as 8192 x 1. -/
theorem V_labelCol : (V m c main_v1 : S8192x1.Idx → BitVec 32)
    = shapeCast S8192x1 (m ((c : Thread nD τ).loc main_arg1) : S8192.Idx → BitVec 32) Facts₀.shapeCasts_S8192_S8192x1 := by
  dsimp only [V]; after_results; rfl

/-- The label row as the region finds it: the argument laid out as 1 x 8192. -/
theorem V_labelRow : (V m c main_v2 : S1x8192.Idx → BitVec 32)
    = shapeCast S1x8192 (m ((c : Thread nD τ).loc main_arg1) : S8192.Idx → BitVec 32) Facts₀.shapeCasts_S8192_S1x8192 := by
  dsimp only [V]; after_results; rfl

/-- The block index maps over the grid: windows 0, 2 and 4 move with the point along the rows, windows 1 and 3 stay; and
    the point's one coordinate is its number. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ ((grid0.coords t) (0 : Fin 1)).val = t.val :=
  (by decide +kernel : ∀ t : Fin grid0.N, _)

/-- Window 0's block at point t, at (p, k): the features at (t*256 + p, k). -/
theorem block0_apply (t : Fin cfg0.N) (p : Fin 256) (k : Fin 128) (r : Fin 8192) (hr : r.val = t.val * 256 + p.val) :
    (blockAt m c 0 t : Vec Ideal S256x128 .bf16) (ix2 p k)
      = (m ((c : Thread nD τ).loc main_arg0) : S8192x128.Idx → EReal) (ix2 r k) := by
  obtain ⟨e0, e1, -⟩ := idx_facts t
  unfold blockAt
  rw [View.read_apply]
  show (V m c main_v0 : S8192x128.Idx → EReal) _ = _
  rw [V_features]
  congr 1
  funext a
  apply Fin.ext
  match a with
  | ⟨0, _⟩ => show win0_0.index t (0 : Fin 2) * 256 + 1 * p.val = r.val; rw [e0, hr]; omega
  | ⟨1, _⟩ => show win0_0.index t (1 : Fin 2) * 128 + 1 * k.val = k.val; rw [e1]; omega

/-- Window 1's block at any point, at (j, k): the features at (j, k). -/
theorem block1_apply (t : Fin cfg0.N) (j : Fin 8192) (k : Fin 128) :
    (blockAt m c 1 t : Vec Ideal S8192x128 .bf16) (ix2 j k)
      = (m ((c : Thread nD τ).loc main_arg0) : S8192x128.Idx → EReal) (ix2 j k) := by
  obtain ⟨-, -, e0, e1, -⟩ := idx_facts t
  unfold blockAt
  rw [View.read_apply]
  show (V m c main_v0 : S8192x128.Idx → EReal) _ = _
  rw [V_features]
  congr 1
  funext a
  apply Fin.ext
  match a with
  | ⟨0, _⟩ => show win0_1.index t (0 : Fin 2) * 8192 + 1 * j.val = j.val; rw [e0]; omega
  | ⟨1, _⟩ => show win0_1.index t (1 : Fin 2) * 128 + 1 * k.val = k.val; rw [e1]; omega

/-- Window 2's block at point t, at (p, 0): the label of row t*256 + p. -/
theorem block2_apply (t : Fin cfg0.N) (p : Fin 256) (r : Fin 8192) (hr : r.val = t.val * 256 + p.val) :
    (blockAt m c 2 t : Vec Ideal S256x1 .i32) (ix2 p (0 : Fin 1))
      = (m ((c : Thread nD τ).loc main_arg1) : S8192.Idx → BitVec 32) (ix1 r) := by
  obtain ⟨-, -, -, -, e0, e1, -⟩ := idx_facts t
  unfold blockAt
  rw [View.read_apply]
  show (V m c main_v1 : S8192x1.Idx → BitVec 32) _ = _
  rw [V_labelCol]
  refine Eq.trans (congrArg _ ?_) (Cert.LibColumn.shapeCast_a_a1_apply _ _ r (0 : Fin 1))
  funext a
  apply Fin.ext
  match a with
  | ⟨0, _⟩ => show win0_2.index t (0 : Fin 2) * 256 + 1 * p.val = r.val; rw [e0, hr]; omega
  | ⟨1, _⟩ => show win0_2.index t (1 : Fin 2) * 1 + 1 * 0 = 0; rw [e1]

/-- Window 3's block at any point, at (0, j): the label of row j. -/
theorem block3_apply (t : Fin cfg0.N) (j : Fin 8192) :
    (blockAt m c 3 t : Vec Ideal S1x8192 .i32) (ix2 (0 : Fin 1) j)
      = (m ((c : Thread nD τ).loc main_arg1) : S8192.Idx → BitVec 32) (ix1 j) := by
  obtain ⟨-, -, -, -, -, -, e0, e1, -⟩ := idx_facts t
  unfold blockAt
  rw [View.read_apply]
  show (V m c main_v2 : S1x8192.Idx → BitVec 32) _ = _
  rw [V_labelRow]
  refine Eq.trans (congrArg _ ?_) (shapeCast_a_1a_apply _ _ (0 : Fin 1) j)
  funext a
  apply Fin.ext
  match a with
  | ⟨0, _⟩ => show win0_3.index t (0 : Fin 2) * 1 + 1 * 0 = 0; rw [e0]
  | ⟨1, _⟩ => show win0_3.index t (1 : Fin 2) * 8192 + 1 * j.val = j.val; rw [e1]; omega

end Cert.KernelIdeal.HandValue

end
-- ==== Proof.KiFinal.lean ====
/-
  From the blocks to the array.

  At grid point t the kernel writes back the 256 x 4 block of per-row numbers of rows t*256 .. t*256+255; the 32 points
  together cover the 8192 x 4 result array, which therefore ends holding the per-row numbers of the argument arrays.
-/
import proofs.«113400_j70781061038765_1_alg».proof.Proof.KiData
import proofs.«113400_j70781061038765_1_alg».proof.Proof.KiFinalBlocks
import proofs.«113400_j70781061038765_1_alg».proof.Proof.Spec
import proofs.«113400_j70781061038765_1_alg».proof.Proof.KerBlock
import proofs.«113400_j70781061038765_1_alg».proof.Proof.LibColumn
import Idealize.ShloMosaic.Lib.ValueLayout
import Idealize.ShloMosaic.Lib.Pipeline.Value
import Idealize.ShloMosaic.Lib.StableHlo.Run

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)
open Idealize.ShloMosaic.StableHlo

theorem offsets_zero : (![0, 0] : Fin 2 → Nat) = fun _ => 0 := funext fun a => by fin_cases a <;> rfl

/-- The block of statistics of four input blocks that are the blocks of features x and labels t at grid point i, at
    index j, is the per-row number of the array index k with k = (i*256 + j₀, j₁). -/
theorem stats_apply (i : grid0.Coords) (x : Cert.Spec.X) (t : Cert.Spec.T)
    (x0 : Vec Ideal S256x128 .bf16) (x1 : Vec Ideal S8192x128 .bf16) (x2 : Vec Ideal S256x1 .i32) (x3 : Vec Ideal S1x8192 .i32)
    (h0 : ∀ (p : Fin 256) (k : Fin 128) (r : Fin 8192), r.val = (i 0).val * 256 + p.val → x0 (ix2 p k) = x (ix2 r k))
    (h2 : ∀ (j : Fin 8192) (k : Fin 128), x1 (ix2 j k) = x (ix2 j k))
    (h7 : ∀ (p : Fin 256) (r : Fin 8192), r.val = (i 0).val * 256 + p.val → x2 (ix2 p 0) = t (ix1 r))
    (h9 : ∀ j : Fin 8192, x3 (ix2 0 j) = t (ix1 j))
    (j : S256x4.Idx) (k : S8192x4.Idx) (hk0 : (k 0).val = (i 0).val * 256 + (j 0).val) (hk1 : (k 1).val = (j 1).val) :
    stats (F := Ideal) i x0 x1 x2 x3 j = Cert.Spec.rowStats x t k := by
  unfold stats
  simp only [View.ld_unit_zero (S := S256x128) offsets_zero, View.ld_unit_zero (S := S8192x128) offsets_zero,
    View.ld_unit_zero (S := S256x1) offsets_zero, View.ld_unit_zero (S := S1x8192) offsets_zero]
  have hk : k = ix2 (k 0) (j 1) := by
    rw [eq_ix2 k]
    exact congrArg (ix2 (k 0)) (Fin.ext hk1)
  rw [eq_ix2 j, hk]
  exact Cert.KernelSide.block_eq i x t x0 x1 x2 x3 h0 h2 h7 h9 (j 0) (j 1) (k 0) hk0

variable (m : (ℓ : Loc nD τ sig) → Buf (Elt Ideal) ℓ) (c : Dev nD)

/-- The per-row numbers of the argument arrays, as the contents of the result array. -/
abbrev result : S8192x4.Idx → EReal :=
  Cert.Spec.rowStats (m ((c : Thread nD τ).loc main_arg0)) (m ((c : Thread nD τ).loc main_arg1))

/-- WHAT POINT t WRITES BACK is block t of the per-row numbers of the argument arrays. -/
theorem flushed_eq (t : Fin cfg0.N) :
    (dats (F := Ideal) m 0 c).flushed 4 t = ((cfg0.win 4).blk t).view.read (Elt Ideal) (result m c) := by
  show (cfg0.win 4).cut (grid0.coords t) ((dats (F := Ideal) m 0 c).after 4 t) = _
  rw [after4]
  unfold outBlock
  rw [View.canon_unit_zero offsets_zero]
  obtain ⟨-, -, -, -, -, -, -, -, e0, e1, ec⟩ := idx_facts t
  funext j
  show stats (F := Ideal) (grid0.coords t) (blockAt m c 0 t) (blockAt m c 1 t) (blockAt m c 2 t) (blockAt m c 3 t) j
    = result m c (((cfg0.win 4).blk t).view.emb j)
  refine stats_apply (grid0.coords t) _ _ _ _ _ _
    (fun p k r hr => block0_apply m c t p k r (by rw [hr, ec]))
    (fun j k => block1_apply m c t j k)
    (fun p r hr => block2_apply m c t p r (by rw [hr, ec]))
    (fun j => block3_apply m c t j) j _ ?_ ?_
  · show win0_4.index t (0 : Fin 2) * 256 + 1 * (j 0).val = ((grid0.coords t) 0).val * 256 + (j 0).val
    rw [e0, ec]; omega
  · show win0_4.index t (1 : Fin 2) * 4 + 1 * (j 1).val = (j 1).val
    rw [e1]; omega

/-- An index of the result array is in point t's block iff each coordinate is in the block's range on its axis. -/
theorem mem_blk (t : Fin cfg0.N) (i : S8192x4.Idx) :
    i ∈ ((cfg0.win 4).blk t).view.set
      ↔ ∀ a : Fin 2, win0_4.index t a * S256x4.size a ≤ (i a).val ∧ (i a).val < win0_4.index t a * S256x4.size a + S256x4.size a := by
  show i ∈ ((View.whole main_v3).slice (win0_4.rect t)).set ↔ _
  rw [View.set_slice_whole, Rect.mem_set_unit]
  exact Iff.rfl

/-- Every index of the result array is in some point's block: row r is written at point r / 256. -/
theorem cover (i : S8192x4.Idx) : ∃ t : Fin cfg0.N, (cfg0.win 4).flush t = true ∧ i ∈ ((cfg0.win 4).blk t).view.set := by
  have hi0 : (i 0).val < 8192 := (i 0).isLt
  have hi1 : (i 1).val < 4 := (i 1).isLt
  have hN : cfg0.N = 32 := N_0
  let t : Fin cfg0.N := ⟨(i 0).val / 256, by rw [hN]; omega⟩
  have ht : t.val = (i 0).val / 256 := rfl
  obtain ⟨-, -, -, -, -, -, -, -, e0, e1, -⟩ := idx_facts t
  refine ⟨t, flush0_4 t, ?_⟩
  rw [mem_blk]
  intro a
  match a with
  | ⟨0, _⟩ =>
    show win0_4.index t (0 : Fin 2) * 256 ≤ (i 0).val ∧ (i 0).val < win0_4.index t (0 : Fin 2) * 256 + 256
    rw [e0, ht]; omega
  | ⟨1, _⟩ =>
    show win0_4.index t (1 : Fin 2) * 4 ≤ (i 1).val ∧ (i 1).val < win0_4.index t (1 : Fin 2) * 4 + 4
    rw [e1]; omega

/-- THE RESULT ARRAY after all the write-backs is the per-row numbers of the two argument arrays. -/
theorem final_out (m : (ℓ : Loc nD τ sig) → Buf (Elt Ideal) ℓ) (c : Dev nD) :
    (Cert.KernelIdeal.Hand.dats (F := Ideal) m 0 c).arrAt 4 cfg0.N
      = (Cert.Spec.rowStats (m ((c : Thread nD τ).loc main_arg0)) (m ((c : Thread nD τ).loc main_arg1)) : S8192x4.Idx → EReal) :=
  (dats (F := Ideal) m 0 c).arrAt_eq_of_cover 4 (result m c) (fun t _ => flushed_eq m c t) (cover)

end Cert.KernelIdeal.HandValue

end
-- ==== Proof.KerTailOps.lean ====
import proofs.«113400_j70781061038765_1_alg».proof.Proof.Gen.KernelIdeal.Launch
import proofs.«113400_j70781061038765_1_alg».proof.Proof.Spec
import Idealize.ShloMosaic.Lib.StableHlo.Run
import Idealize.ShloMosaic.Lib.Pipeline.Value
import Idealize.ShloMosaic.Lib.ValueIdx
import Idealize.ShloMosaic.PureOps.Ideal
import Idealize.ShloMosaic.PureOps.Ideal.Laws

noncomputable section

namespace Cert.KernelSide.Tail

open Cert.KernelIdeal Cert.KernelIdeal.Gen Idealize.ShloMosaic Idealize.ShloMosaic.TcCoe Idealize.SL.Sem
open Idealize.ShloMosaic.StableHlo Idealize.ShloMosaic.ValueIdx
open scoped BigOperators

/-! The operations of the host tail read at an index, at the ideal values: a column of the 8192 x 4 array of per-row
    numbers cut out and flattened, the float sum over all 8192 rows, and the four columns of the claim's array. -/

/-- The one-axis index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Column k of the array, cut out as an 8192 x 1 slice and flattened to 8192 entries, read at row r. -/
def col (k : ℕ) (h : S8192x4.Slices ![0, k] S8192x1) (A : S8192x4.Idx → EReal) (r : Fin 8192) : EReal :=
  shapeCast S8192 (extractStridedSlice S8192x1 ![0, k] A h) Facts₀.shapeCasts_S8192x1_S8192 (ix1 r)

/-- It is the array's entry (r, k). -/
theorem col_eq (k : ℕ) (hk : k < 4) (h : S8192x4.Slices ![0, k] S8192x1) (A : S8192x4.Idx → EReal) (r : Fin 8192) :
    col k h A r = A (ix2 r ⟨k, hk⟩) := by
  unfold col
  refine (shapeCast_apply _ Facts₀.shapeCasts_S8192x1_S8192 (ix1 r) (ix2 r (0 : Fin 1)) ?_).trans ?_
  · rw [Shape.rowMajor_val_two, Shape.rowMajor_val_one]
    show r.val * 1 + 0 = r.val
    omega
  · refine extractStridedSlice_apply ![0, k] A h (ix2 r (0 : Fin 1)) (ix2 r ⟨k, hk⟩) fun a => ?_
    match a with
    | ⟨0, _⟩ => show r.val = 0 + r.val; omega
    | ⟨1, _⟩ => show k = k + 0; omega

/-- The float sum of 8192 entries into a scalar: the initial value plus the sum over the rows. -/
theorem reduce_all_apply (y : S8192.Idx → EReal) (init : S_.Idx → EReal) (i : S_.Idx) :
    Host.reduceAdd (F := Ideal) (φ := .f32) y init Facts₀.reducesTo_S8192_S_d0 Facts₀.h_S_ i
      = init (Shape.Idx.first Facts₀.h_S_) + ∑ r : Fin 8192, y (ix1 r) := by
  simp only [Host.reduceAdd, Ideal.hostReduceAdd_def]
  rw [Ideal.hostReduceAdd_total Facts₀.reducesTo_S8192_S_d0 (fun b => b.elim0) y _ i, sum_idx1]

/-- The four columns of the claim's array of per-row numbers. -/
theorem rowStats_0 (x : Spec.X) (t : Spec.T) (r : Fin 8192) : Spec.rowStats x t (ix2 r ⟨0, by omega⟩) = Spec.s x t r := by
  unfold Spec.rowStats; exact if_pos rfl

theorem rowStats_1 (x : Spec.X) (t : Spec.T) (r : Fin 8192) : Spec.rowStats x t (ix2 r ⟨1, by omega⟩) = Spec.cnt t r := by
  unfold Spec.rowStats
  exact (if_neg (by show ¬ ((1 : ℕ) = 0); decide)).trans (if_pos rfl)

theorem rowStats_2 (x : Spec.X) (t : Spec.T) (r : Fin 8192) : Spec.rowStats x t (ix2 r ⟨2, by omega⟩) = Spec.rmax x r := by
  unfold Spec.rowStats
  exact (if_neg (by show ¬ ((2 : ℕ) = 0); decide)).trans ((if_neg (by show ¬ ((2 : ℕ) = 1); decide)).trans (if_pos rfl))

theorem rowStats_3 (x : Spec.X) (t : Spec.T) (r : Fin 8192) : Spec.rowStats x t (ix2 r ⟨3, by omega⟩) = Spec.z x r := by
  unfold Spec.rowStats
  exact (if_neg (by show ¬ ((3 : ℕ) = 0); decide)).trans ((if_neg (by show ¬ ((3 : ℕ) = 1); decide)).trans
    (if_neg (by show ¬ ((3 : ℕ) = 2); decide)))

end Cert.KernelSide.Tail

end
-- ==== Proof.KerTail.lean ====
import proofs.«113400_j70781061038765_1_alg».proof.Proof.Gen.KernelIdeal.Launch
import proofs.«113400_j70781061038765_1_alg».proof.Proof.Spec
import Idealize.ShloMosaic.Lib.StableHlo.Run
import Idealize.ShloMosaic.Lib.Pipeline.Value
import Idealize.ShloMosaic.Lib.ValueIdx
import Idealize.ShloMosaic.PureOps.Ideal
import Idealize.ShloMosaic.PureOps.Ideal.Laws
import proofs.«113400_j70781061038765_1_alg».proof.Proof.KerTailOps

noncomputable section

namespace Cert.KernelSide.Tail

open Cert.KernelIdeal Cert.KernelIdeal.Gen Idealize.ShloMosaic Idealize.ShloMosaic.TcCoe Idealize.SL.Sem
open Idealize.ShloMosaic.StableHlo Idealize.ShloMosaic.ValueIdx
open scoped BigOperators

/-! The host tail read back: after the 36 host operations that follow the kernel region, the three result scalars are
    the claim's loss, average positive count and average negative count of the array of per-row numbers, and the two
    arguments are as they were. -/

/-- The per-row quotient the tail forms from the four columns is the mean log-probability of the positives. -/
theorem row_apply (x : Spec.X) (t : Spec.T) (r : Fin 8192) (h0 : S8192x4.Slices ![0, 0] S8192x1)
    (h1 : S8192x4.Slices ![0, 1] S8192x1) (h2 : S8192x4.Slices ![0, 2] S8192x1) (h3 : S8192x4.Slices ![0, 3] S8192x1) :
    Ideal.div (col 0 h0 (Spec.rowStats x t) r - col 1 h1 (Spec.rowStats x t) r
        * (col 2 h2 (Spec.rowStats x t) r + Ideal.log (col 3 h3 (Spec.rowStats x t) r + Spec.eps)))
      (col 1 h1 (Spec.rowStats x t) r + Spec.eps) = Spec.mlpp x t r := by
  rw [col_eq 0 (by omega), col_eq 1 (by omega), col_eq 2 (by omega), col_eq 3 (by omega), rowStats_0, rowStats_1,
    rowStats_2, rowStats_3]
  rfl

section Results

variable (W : Valuation Cert.KernelIdeal.τ Cert.KernelIdeal.sig (Elt Ideal)) (x : Spec.X) (t : Spec.T)

/-- The first result is the loss. -/
theorem tail_loss (hW : W (Proc.devRef .tc main_v3) = Spec.rowStats x t) :
    StableHlo.after (hostOps1 (F := Ideal)) W (Proc.devRef .tc main_v23) = fun _ => Spec.loss x t := by
  after_results_simp
  rw [hW]
  funext i
  show Spec.wgt * Ideal.div (Host.reduceAdd (F := Ideal) (φ := .f32) _ _ Facts₀.reducesTo_S8192_S_d0 Facts₀.h_S_ i) Spec.n8192 = _
  rw [reduce_all_apply]
  unfold Spec.loss
  refine congrArg (fun z => Spec.wgt * Ideal.div z Spec.n8192) ?_
  refine congrArg₂ (· + ·) rfl (Finset.sum_congr rfl fun r _ => ?_)
  exact row_apply x t r _ _ _ _

/-- The second result is the average count of positives. -/
theorem tail_avgPos (hW : W (Proc.devRef .tc main_v3) = Spec.rowStats x t) :
    StableHlo.after (hostOps1 (F := Ideal)) W (Proc.devRef .tc main_v25) = fun _ => Spec.avgPos t := by
  after_results_simp
  rw [hW]
  funext i
  show Ideal.div (Host.reduceAdd (F := Ideal) (φ := .f32) _ _ Facts₀.reducesTo_S8192_S_d0 Facts₀.h_S_ i) Spec.n8192 = _
  rw [reduce_all_apply]
  unfold Spec.avgPos
  refine congrArg (fun z => Ideal.div z Spec.n8192) ?_
  refine congrArg₂ (· + ·) rfl (Finset.sum_congr rfl fun r _ => ?_)
  exact (col_eq 1 (by omega) _ (Spec.rowStats x t) r).trans (rowStats_1 x t r)

/-- The third result is the average count of negatives. -/
theorem tail_avgNeg (hW : W (Proc.devRef .tc main_v3) = Spec.rowStats x t) :
    StableHlo.after (hostOps1 (F := Ideal)) W (Proc.devRef .tc main_v29) = fun _ => Spec.avgNeg t := by
  after_results_simp
  rw [hW]
  funext i
  show Ideal.div (Host.reduceAdd (F := Ideal) (φ := .f32) _ _ Facts₀.reducesTo_S8192_S_d0 Facts₀.h_S_ i) Spec.n8192 = _
  rw [reduce_all_apply]
  unfold Spec.avgNeg
  refine congrArg (fun z => Ideal.div z Spec.n8192) ?_
  refine congrArg₂ (· + ·) rfl (Finset.sum_congr rfl fun r _ => ?_)
  exact congrArg (fun z => Spec.n8191 - z) ((col_eq 1 (by omega) _ (Spec.rowStats x t) r).trans (rowStats_1 x t r))

end Results

end Cert.KernelSide.Tail

end
-- ==== Proof.RefMask.lean ====
import proofs.«113400_j70781061038765_1_alg».proof.Proof.Spec
import proofs.«113400_j70781061038765_1_alg».proof.Proof.Gen.ReferenceIdeal.Read

noncomputable section

namespace Cert.RefSide

open Idealize.ShloMosaic Idealize.ShloMosaic.ValueIdx Cert.ReferenceIdeal Cert.ReferenceIdeal.Gen Cert.ReferenceIdeal.Read

/-! The reference's label masks, read entry by entry: the one-hot rows, their Gram matrix (1 when two labels agree),
    the identity, and the three masks built from them. -/

/-- A one-bit word converted to a float is 1 when the bit is set and 0 otherwise. -/
theorem uitofp_bit (c : BitVec 1) : FloatOps.uitofp (F := Ideal) .f32 c = if c = 1#1 then (1 : EReal) else 0 := by
  have hc : c = 0#1 ∨ c = 1#1 := by revert c; decide
  rcases hc with rfl | rfl
  · rw [if_neg (by decide)]; show (((0#1 : BitVec 1).toNat : ℝ) : EReal) = 0; simp
  · rw [if_pos rfl]; show (((1#1 : BitVec 1).toNat : ℝ) : EReal) = 1; simp

/-- The converted equality test of two words is the indicator of their equality. -/
theorem uitofp_cmpi_eq {w : Nat} (a b : BitVec w) :
    FloatOps.uitofp (F := Ideal) .f32 (IntOp.cmpi .eq a b) = if a = b then (1 : EReal) else 0 := by
  rw [uitofp_bit]
  by_cases h : a = b
  · rw [if_pos h, if_pos]; unfold IntOp.cmpi; simp [h]
  · rw [if_neg h, if_neg]
    have hb : (a == b) = false := by simpa using h
    show ¬ BitVec.ofBool (a == b) = 1#1
    rw [hb]; decide

/-- The one-hot entry (r, a): 1 when the label of r is the word a. -/
theorem oh_apply (t : IVec S8192 32) (r : Fin 8192) (a : Fin 10) :
    val_main_v0 (F := Ideal) t (ix2 r a) = Spec.oh t r a := by
  rw [val_main_v0_apply, val_main_call0_v4_apply, val_main_call0_v2_apply, val_main_call0_v0_apply,
    val_main_call0_v3_apply, val_main_call0_v1_apply, uitofp_cmpi_eq]
  have e : idx_main_call0_v0 (idx_main_call0_v2 (ix2 r a)) = ix1 r :=
    funext fun d => Fin.ext (by match d with | ⟨0, _⟩ => rfl)
  rw [e]; rfl

/-- The Gram matrix of the one-hot rows at (r, j). -/
theorem mpf_apply (t : IVec S8192 32) (r j : Fin 8192) :
    val_main_v2 (F := Ideal) t (ix2 r j) = Spec.mpf t r j := by
  rw [val_main_v2_apply]
  unfold Spec.mpf
  refine Finset.sum_congr rfl fun a _ => ?_
  rw [val_main_v1_apply]
  have el : lidx_main_v2 (ix2 r j) a = ix2 r a :=
    funext fun d => Fin.ext (by match d with | ⟨0, _⟩ => rfl | ⟨1, _⟩ => rfl)
  have er : idx_main_v1 (ridx_main_v2 (ix2 r j) a) = ix2 j a :=
    funext fun d => Fin.ext (by match d with | ⟨0, _⟩ => rfl | ⟨1, _⟩ => rfl)
  rw [el, er, oh_apply, oh_apply]

/-- Two row numbers below 8192 are equal as 32-bit words exactly when they are equal. -/
theorem ofNat_eq_iff (r j : Fin 8192) : BitVec.ofNat 32 r.val = BitVec.ofNat 32 j.val ↔ r = j := by
  constructor
  · intro h
    have ht := congrArg BitVec.toNat h
    rw [BitVec.toNat_ofNat, BitVec.toNat_ofNat] at ht
    have hr := r.isLt; have hj := j.isLt
    apply Fin.ext; omega
  · rintro rfl; rfl

/-- The identity matrix at (r, j). -/
theorem eye_apply (r j : Fin 8192) : val_main_v10 (F := Ideal) (ix2 r j) = Spec.eye r j := by
  rw [val_main_v10_apply, val_main_v9_apply, val_main_v8_apply, val_main_v5_apply, val_main_v6_apply, val_main_v7_apply,
    val_main_c_apply, uitofp_cmpi_eq]
  unfold Spec.eye
  have e : IntOp.addi (BitVec.ofNat 32 ((ix2 r j : S8192x8192.Idx) 0).val) 0#32 = BitVec.ofNat 32 r.val := by
    show BitVec.ofNat 32 r.val + 0#32 = _; rw [BitVec.add_zero]
  rw [e]
  show (if BitVec.ofNat 32 r.val = BitVec.ofNat 32 j.val then (1 : EReal) else 0) = _
  by_cases h : r = j
  · rw [if_pos h, if_pos ((ofNat_eq_iff r j).mpr h)]
  · rw [if_neg h, if_neg (mt (ofNat_eq_iff r j).mp h)]

/-- The negatives' mask at (r, j). -/
theorem mneg_apply (t : IVec S8192 32) (r j : Fin 8192) :
    val_main_v4 (F := Ideal) t (ix2 r j) = Spec.mneg t r j := by
  rw [val_main_v4_apply, val_main_v3_apply, val_main_cst_apply, mpf_apply]; rfl

/-- The positives' mask at (r, j). -/
theorem mp_apply (t : IVec S8192 32) (r j : Fin 8192) :
    val_main_v11 (F := Ideal) t (ix2 r j) = Spec.mp t r j := by
  rw [val_main_v11_apply, mpf_apply, eye_apply]; rfl

/-- The logits' mask at (r, j). -/
theorem lmask_apply (t : IVec S8192 32) (r j : Fin 8192) :
    val_main_v12 (F := Ideal) t (ix2 r j) = Spec.lmask t r j := by
  rw [val_main_v12_apply, mp_apply, mneg_apply]; rfl

end Cert.RefSide

end
-- ==== Proof.RefLogits.lean ====
import proofs.«113400_j70781061038765_1_alg».proof.Proof.Spec
import proofs.«113400_j70781061038765_1_alg».proof.Proof.LibRowReduce
import proofs.«113400_j70781061038765_1_alg».proof.Proof.Gen.ReferenceIdeal.Read
import Idealize.ShloMosaic.PureOps.Reduce

noncomputable section

namespace Cert.RefSide

open Idealize.ShloMosaic Idealize.ShloMosaic.ValueIdx Cert.ReferenceIdeal Cert.ReferenceIdeal.Gen Cert.ReferenceIdeal.Read

/-! The reference's similarity logits, read entry by entry: the inner products divided by the temperature word, each row's
    maximum, and the shifted logits. -/

/-- The inner product of rows r and j of the features. -/
theorem dot_apply (x : FVec Ideal S8192x128 .f32) (r j : Fin 8192) :
    val_main_v14 (F := Ideal) x (ix2 r j) = Spec.dotp x r j := by
  rw [val_main_v14_apply]
  unfold Spec.dotp
  refine Finset.sum_congr rfl fun k _ => ?_
  rw [val_main_v13_apply]
  have el : lidx_main_v14 (ix2 r j) k = ix2 r k :=
    funext fun d => Fin.ext (by match d with | ⟨0, _⟩ => rfl | ⟨1, _⟩ => rfl)
  have er : idx_main_v13 (ridx_main_v14 (ix2 r j) k) = ix2 j k :=
    funext fun d => Fin.ext (by match d with | ⟨0, _⟩ => rfl | ⟨1, _⟩ => rfl)
  rw [el, er]

/-- The logit (r, j): the inner product divided by the temperature word. -/
theorem lgR_apply (x : FVec Ideal S8192x128 .f32) (r j : Fin 8192) :
    val_main_v16 (F := Ideal) x (ix2 r j) = Spec.lgR x r j := by
  rw [val_main_v16_apply, dot_apply, val_main_v15_apply, val_main_cst_0_apply]; rfl

/-- The maximum of row r of the logits, folded from the word of minus infinity. -/
theorem rmaxR_apply (x : FVec Ideal S8192x128 .f32) (r : Fin 8192) :
    val_main_v17 (F := Ideal) x (ix1 r) = Spec.rmaxR x r := by
  unfold val_main_v17
  have h : S8192x8192.Reduces [(1 : Fin 2)] S8192 := by decide
  refine (Host.reduce_eq_fold_single (α := Ideal .f32) FloatOps.maximumf (val_main_v16 (F := Ideal) x)
    (val_main_cst_1 (F := Ideal)) reducesTo_S8192x8192_S8192_d1 h h_S_ (ix1 r)).trans ?_
  unfold Spec.rmaxR
  have hf : (val_main_v16 (F := Ideal) x ∘ h.lift (ix1 r)) = fun k : Fin 8192 => Spec.lgR x r k :=
    funext fun k => (congrArg (val_main_v16 (F := Ideal) x) (Cert.LibRowReduce.lift_row h r k)).trans (lgR_apply x r k)
  exact congrArg (fun f => Finset.fold max Spec.negInf f (Finset.univ : Finset (Fin 8192))) hf

/-- The shifted logit (r, j). -/
theorem shR_apply (x : FVec Ideal S8192x128 .f32) (r j : Fin 8192) :
    val_main_v20 (F := Ideal) x (ix2 r j) = Spec.shR x r j := by
  rw [val_main_v20_apply, lgR_apply, val_main_v19_apply, val_main_v18_apply]
  have e : idx_main_v18 (idx_main_v19 (ix2 r j)) = ix1 r :=
    funext fun d => Fin.ext (by match d with | ⟨0, _⟩ => rfl)
  rw [e, rmaxR_apply]; rfl

end Cert.RefSide

end
-- ==== Proof.RefRows.lean ====
import proofs.«113400_j70781061038765_1_alg».proof.Proof.RefMask
import proofs.«113400_j70781061038765_1_alg».proof.Proof.RefLogits

noncomputable section

namespace Cert.RefSide

open Idealize.ShloMosaic Idealize.ShloMosaic.ValueIdx Cert.ReferenceIdeal Cert.ReferenceIdeal.Gen Cert.ReferenceIdeal.Read

/-! The reference's per-row numbers: the masked sum of exponentials, the log-probabilities, and the two row sums whose
    quotient is the mean log-probability of the positives. -/

/-- The masked sum of exponentials of row r. -/
theorem ZR_apply (x : FVec Ideal S8192x128 .f32) (t : IVec S8192 32) (r : Fin 8192) :
    val_main_v23 (F := Ideal) x t (ix1 r) = Spec.ZR x t r := by
  rw [val_main_v23_apply, val_main_cst_2_apply]
  unfold Spec.ZR
  refine congrArg (_ + ·) (Finset.sum_congr rfl fun k _ => ?_)
  have e : idx_main_v23 (ix1 r) k = ix2 r k :=
    funext fun d => Fin.ext (by match d with | ⟨0, _⟩ => rfl | ⟨1, _⟩ => rfl)
  rw [e, val_main_v22_apply, val_main_v21_apply, shR_apply, lmask_apply]; rfl

/-- The log-probability (r, j). -/
theorem lpR_apply (x : FVec Ideal S8192x128 .f32) (t : IVec S8192 32) (r j : Fin 8192) :
    val_main_v29 (F := Ideal) x t (ix2 r j) = Spec.lpR x t r j := by
  rw [val_main_v29_apply, shR_apply, val_main_v28_apply, val_main_v27_apply, val_main_v26_apply, val_main_v24_apply,
    val_main_v25_apply, val_main_cst_3_apply]
  have e : idx_main_v24 (idx_main_v28 (ix2 r j)) = ix1 r :=
    funext fun d => Fin.ext (by match d with | ⟨0, _⟩ => rfl)
  rw [e, ZR_apply]; rfl

/-- The sum over row r of the positives' log-probabilities. -/
theorem numR_apply (x : FVec Ideal S8192x128 .f32) (t : IVec S8192 32) (r : Fin 8192) :
    val_main_v31 (F := Ideal) x t (ix1 r) = Spec.numR x t r := by
  rw [val_main_v31_apply, val_main_cst_4_apply]
  unfold Spec.numR
  refine congrArg (_ + ·) (Finset.sum_congr rfl fun k _ => ?_)
  have e : idx_main_v31 (ix1 r) k = ix2 r k :=
    funext fun d => Fin.ext (by match d with | ⟨0, _⟩ => rfl | ⟨1, _⟩ => rfl)
  rw [e, val_main_v30_apply, mp_apply, lpR_apply]; rfl

/-- The number of positives of row r (first reading). -/
theorem denR_apply (t : IVec S8192 32) (r : Fin 8192) :
    val_main_v32 (F := Ideal) t (ix1 r) = Spec.denR t r := by
  rw [val_main_v32_apply, val_main_cst_5_apply]
  unfold Spec.denR
  refine congrArg (_ + ·) (Finset.sum_congr rfl fun k _ => ?_)
  have e : idx_main_v32 (ix1 r) k = ix2 r k :=
    funext fun d => Fin.ext (by match d with | ⟨0, _⟩ => rfl | ⟨1, _⟩ => rfl)
  rw [e, mp_apply]

/-- The number of positives of row r (second reading, the one the average is taken of). -/
theorem denR_apply' (t : IVec S8192 32) (r : Fin 8192) :
    val_main_v39 (F := Ideal) t (ix1 r) = Spec.denR t r := by
  rw [val_main_v39_apply, val_main_cst_10_apply]
  unfold Spec.denR
  refine congrArg (_ + ·) (Finset.sum_congr rfl fun k _ => ?_)
  have e : idx_main_v39 (ix1 r) k = ix2 r k :=
    funext fun d => Fin.ext (by match d with | ⟨0, _⟩ => rfl | ⟨1, _⟩ => rfl)
  rw [e, mp_apply]

/-- The number of negatives of row r. -/
theorem negR_apply (t : IVec S8192 32) (r : Fin 8192) :
    val_main_v42 (F := Ideal) t (ix1 r) = Spec.zero + ∑ j : Fin 8192, Spec.mneg t r j := by
  rw [val_main_v42_apply, val_main_cst_13_apply]
  refine congrArg (_ + ·) (Finset.sum_congr rfl fun k _ => ?_)
  have e : idx_main_v42 (ix1 r) k = ix2 r k :=
    funext fun d => Fin.ext (by match d with | ⟨0, _⟩ => rfl | ⟨1, _⟩ => rfl)
  rw [e, mneg_apply]

/-- The mean log-probability of the positives of row r. -/
theorem quotR_apply (x : FVec Ideal S8192x128 .f32) (t : IVec S8192 32) (r : Fin 8192) :
    val_main_v35 (F := Ideal) x t (ix1 r) = Ideal.div (Spec.numR x t r) (Spec.denR t r + Spec.eps) := by
  rw [val_main_v35_apply, numR_apply, val_main_v34_apply, denR_apply, val_main_v33_apply, val_main_cst_6_apply]; rfl

end Cert.RefSide

end
-- ==== Proof.RefResults.lean ====
import proofs.«113400_j70781061038765_1_alg».proof.Proof.RefRows

noncomputable section

namespace Cert.RefSide

open Idealize.ShloMosaic Idealize.ShloMosaic.ValueIdx Cert.ReferenceIdeal Cert.ReferenceIdeal.Gen Cert.ReferenceIdeal.Read

/-! The reference's three results are the closed forms. -/

/-- A rank-1 index set is its one coordinate range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The loss, as a function of the two arguments. -/
theorem val_loss (x : FVec Ideal S8192x128 .f32) (t : IVec S8192 32) :
    val_main_v38 (F := Ideal) x t = fun _ => Spec.lossR x t := by
  funext i
  rw [val_main_v38_apply, val_main_cst_9_apply, val_main_v37_apply, val_main_v36_apply, val_main_cst_7_apply,
    val_main_cst_8_apply, sum_idx1]
  unfold Spec.lossR
  simp only [quotR_apply]
  rfl

/-- The average number of positives, as a function of the labels. -/
theorem val_avgPos (t : IVec S8192 32) : val_main_v41 (F := Ideal) t = fun _ => Spec.avgPosR t := by
  funext i
  rw [val_main_v41_apply, val_main_v40_apply, val_main_cst_11_apply, val_main_cst_12_apply, sum_idx1]
  unfold Spec.avgPosR
  simp only [denR_apply']
  rfl

/-- The average number of negatives, as a function of the labels. -/
theorem val_avgNeg (t : IVec S8192 32) : val_main_v44 (F := Ideal) t = fun _ => Spec.avgNegR t := by
  funext i
  rw [val_main_v44_apply, val_main_v43_apply, val_main_cst_14_apply, val_main_cst_15_apply, sum_idx1]
  unfold Spec.avgNegR
  simp only [negR_apply]
  rfl

end Cert.RefSide

end
-- ==== Proof.RefRun.lean ====
import proofs.«113400_j70781061038765_1_alg».proof.Proof.RefResults

noncomputable section

namespace Cert.RefSide

open Cert.ReferenceIdeal Cert.ReferenceIdeal.Gen Cert.ReferenceIdeal.Read Idealize.ShloMosaic Idealize.ShloMosaic.TcCoe Idealize.SL.Sem Idealize.ShloMosaic.StableHlo

/-! The three result terms of the reference's run, as functions of the launch contents of its two arguments, are the
    closed forms. -/

/-- The first result: the loss. -/
theorem ref_loss (m : (ℓ : Loc nD τ sig) → Buf (Elt Ideal) ℓ) (c : Dev nD) :
    Cert.ReferenceIdeal.Value.res_out0 (F := Ideal) m c
      = fun _ => Spec.lossR (m ((c.tc : Thread nD τ).loc main_arg0)) (m ((c.tc : Thread nD τ).loc main_arg1)) :=
  (val_main_v38_eq m c).trans (val_loss _ _)

set_option maxRecDepth 8192 in
/-- The second result: the average number of positives. -/
theorem ref_avgPos (m : (ℓ : Loc nD τ sig) → Buf (Elt Ideal) ℓ) (c : Dev nD) :
    (Host.divf (Host.reduceAdd (Host.reduceAdd (subf (Host.dotGeneral dot_S8192x10_S10x8192_S8192x8192_1_0_0_1_n_n none (uitofp .f32 (cmpi .eq (broadcastInDim S8192x10 ![0, 1] bcast_S8192x1_S8192x10_0_1 (broadcastInDim S8192x1 ![0] bcast_S8192_S8192x1_0 (m ((c.tc : Thread nD τ).loc main_arg1)))) (broadcastInDim S8192x10 ![0, 1] bcast_S1x10_S8192x10_0_1 (iotaInDim S1x10 32 1)))) (transpose S10x8192 [1, 0] (uitofp .f32 (cmpi .eq (broadcastInDim S8192x10 ![0, 1] bcast_S8192x1_S8192x10_0_1 (broadcastInDim S8192x1 ![0] bcast_S8192_S8192x1_0 (m ((c.tc : Thread nD τ).loc main_arg1)))) (broadcastInDim S8192x10 ![0, 1] bcast_S1x10_S8192x10_0_1 (iotaInDim S1x10 32 1)))) transposes_S8192x10_S10x8192_1_0)) (uitofp .f32 (cmpi .eq (addi (iotaInDim S8192x8192 32 0) (broadcastInDim S8192x8192 ![] bcast_S_S8192x8192 (constantI S_ 32 0#32))) (iotaInDim S8192x8192 32 1)))) (constant S_ .f32 0x00000000#32) reducesTo_S8192x8192_S8192_d1 h_S_) (constant S_ .f32 0x00000000#32) reducesTo_S8192_S_d0 h_S_) (constant S_ .f32 0x46000000#32) : FVec Ideal S_ .f32)
      = fun _ => Spec.avgPosR (m ((c.tc : Thread nD τ).loc main_arg1)) :=
  (val_main_v41_eq (F := Ideal) (m ((c.tc : Thread nD τ).loc main_arg1))).trans (val_avgPos _)

set_option maxRecDepth 8192 in
/-- The third result: the average number of negatives. -/
theorem ref_avgNeg (m : (ℓ : Loc nD τ sig) → Buf (Elt Ideal) ℓ) (c : Dev nD) :
    (Host.divf (Host.reduceAdd (Host.reduceAdd (subf (broadcastInDim S8192x8192 ![] bcast_S_S8192x8192 (constant S_ .f32 0x3F800000#32)) (Host.dotGeneral dot_S8192x10_S10x8192_S8192x8192_1_0_0_1_n_n none (uitofp .f32 (cmpi .eq (broadcastInDim S8192x10 ![0, 1] bcast_S8192x1_S8192x10_0_1 (broadcastInDim S8192x1 ![0] bcast_S8192_S8192x1_0 (m ((c.tc : Thread nD τ).loc main_arg1)))) (broadcastInDim S8192x10 ![0, 1] bcast_S1x10_S8192x10_0_1 (iotaInDim S1x10 32 1)))) (transpose S10x8192 [1, 0] (uitofp .f32 (cmpi .eq (broadcastInDim S8192x10 ![0, 1] bcast_S8192x1_S8192x10_0_1 (broadcastInDim S8192x1 ![0] bcast_S8192_S8192x1_0 (m ((c.tc : Thread nD τ).loc main_arg1)))) (broadcastInDim S8192x10 ![0, 1] bcast_S1x10_S8192x10_0_1 (iotaInDim S1x10 32 1)))) transposes_S8192x10_S10x8192_1_0))) (constant S_ .f32 0x00000000#32) reducesTo_S8192x8192_S8192_d1 h_S_) (constant S_ .f32 0x00000000#32) reducesTo_S8192_S_d0 h_S_) (constant S_ .f32 0x46000000#32) : FVec Ideal S_ .f32)
      = fun _ => Spec.avgNegR (m ((c.tc : Thread nD τ).loc main_arg1)) :=
  (val_main_v44_eq (F := Ideal) (m ((c.tc : Thread nD τ).loc main_arg1))).trans (val_avgNeg _)

end Cert.RefSide

end
-- ==== Proof.LibFinite.lean ====
import Idealize.ShloMosaic.PureOps.Ideal
import Idealize.ShloMosaic.PureOps.Ideal.Laws
import Idealize.ShloMosaic.Lib.ValueIdx

/-!
  Extended reals that are real numbers, and the operations that keep them so.

  The ideal float values are extended reals. An entry that is the coercion of a real number (neither infinity) stays one
  under sums, products, maxima, finite sums, real powers, gathers, accumulating scatters and selections; and over such
  entries a dot product may be scaled inside the sum.
-/

noncomputable section

namespace Idealize.ShloMosaic.LibFinite

open Idealize.ShloMosaic Idealize.ShloMosaic.ValueIdx
open scoped BigOperators

/-- An extended real that is a real number: the coercion of some `r : ℝ`, so neither infinity. -/
def IsReal (x : EReal) : Prop := ∃ r : ℝ, x = (r : EReal)

/-- Zero is a real number. -/
theorem IsReal.zero : IsReal (0 : EReal) := ⟨0, rfl⟩

/-- The coercion of a real number is one. -/
theorem IsReal.coe (r : ℝ) : IsReal (r : EReal) := ⟨r, rfl⟩

/-- The sum of two real numbers is real. -/
theorem IsReal.add (a b : EReal) : IsReal a → IsReal b → IsReal (a + b) := by
  rintro ⟨x, rfl⟩ ⟨y, rfl⟩; exact ⟨x + y, (EReal.coe_add x y).symm⟩

/-- The product of two real numbers is real. -/
theorem IsReal.mul (a b : EReal) : IsReal a → IsReal b → IsReal (a * b) := by
  rintro ⟨x, rfl⟩ ⟨y, rfl⟩; exact ⟨x * y, (EReal.coe_mul x y).symm⟩

/-- The larger of two real numbers is real. -/
theorem IsReal.max (a b : EReal) : IsReal a → IsReal b → IsReal (Max.max a b) := by
  intro ha hb
  rcases le_total a b with h | h
  · rw [max_eq_right h]; exact hb
  · rw [max_eq_left h]; exact ha

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is real. -/
theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact IsReal.add _ _ (h a (Finset.mem_insert_self a s)) (ih fun i hi => h i (Finset.mem_insert_of_mem hi))

/-- A binary pattern whose exponent field is not all ones denotes a real number (a zero, a subnormal or a normal). -/
theorem isReal_ieee_of_exponent_ne (e m : ℕ) {w : ℕ} (b : BitVec w) (h : (b.extractLsb' m e).toNat ≠ 2 ^ e - 1) :
    IsReal (Ideal.ieee e m b) := by
  unfold Ideal.ieee
  dsimp only
  rw [if_neg h]
  split <;> exact ⟨_, rfl⟩

/-- The single-precision word of all zero bits denotes a real number (zero). -/
theorem isReal_ofBits_zero : IsReal (Ideal.ofBits .f32 0x00000000#32) := by
  rw [Ideal.ofBits_zero_f32]; exact IsReal.zero

/-- The single-precision word `0x3F800000` (one) denotes a real number. -/
theorem isReal_ofBits_one : IsReal (Ideal.ofBits .f32 0x3F800000#32) := by
  show IsReal (Ideal.ieee 8 23 (0x3F800000#32 : BitVec 32))
  exact isReal_ieee_of_exponent_ne 8 23 (0x3F800000#32 : BitVec 32) (by decide)

/-- The single-precision word `0xBF000000` (minus one half) denotes a real number. -/
theorem isReal_ofBits_neg_half : IsReal (Ideal.ofBits .f32 0xBF000000#32) := by
  show IsReal (Ideal.ieee 8 23 (0xBF000000#32 : BitVec 32))
  exact isReal_ieee_of_exponent_ne 8 23 (0xBF000000#32 : BitVec 32) (by decide)

/-- The power of a real base to a real exponent is real (the real power function). -/
theorem isReal_pow (x y : EReal) : IsReal x → IsReal y → IsReal (Ideal.pow x y) := by
  rintro ⟨a, rfl⟩ ⟨b, rfl⟩; exact ⟨Real.rpow a b, rfl⟩

/-- An accumulating scatter of real updates into a real array is real at every entry: the entry plus a finite sum of
    the updates that land on it. -/
theorem isReal_scatterAdd {s si su : Shape} (d : ScatterDims s si su) {w : Nat} (x : s.Idx → EReal) (idx : IVec si w)
    (u : su.Idx → EReal) (hx : ∀ i, IsReal (x i)) (hu : ∀ j, IsReal (u j)) (i : s.Idx) :
    IsReal (Host.scatterAdd (F := Ideal) (φ := .f32) d x idx u i) := by
  show IsReal (x i + ∑ j ∈ Finset.univ.filter (fun j => d.resultIdx? j idx = some i), u j)
  exact IsReal.add _ _ (hx i) (IsReal.sum _ _ fun j _ => hu j)

/-- A gather of a real array is real at every entry: each entry of the result is an entry of the operand. -/
theorem isReal_gather {s si t : Shape} {w : Nat} (d : GatherDims s si t) (x : s.Idx → EReal) (idx : IVec si w)
    (hx : ∀ i, IsReal (x i)) (j : t.Idx) : IsReal (Host.gather d x idx j) := hx _

/-- A selection between two real entries is real. -/
theorem isReal_select {s : Shape} (c : IVec s 1) (a b : s.Idx → EReal) (i : s.Idx) :
    IsReal (a i) → IsReal (b i) → IsReal (select c a b i) := by
  intro ha hb
  rw [select_apply]
  unfold Scalar.select
  split <;> assumption

/-- Over real entries a dot product scaled by a real number is the dot product of the scaled first factor:
    (∑ₖ aₖ·bₖ)·c = ∑ₖ (aₖ·c)·bₖ. -/
theorem dot_scale {K : ℕ} (a b : Fin K → EReal) (c : EReal) (ha : ∀ k, IsReal (a k)) (hb : ∀ k, IsReal (b k))
    (hc : IsReal c) : (∑ k, a k * b k) * c = ∑ k, (a k * c) * b k := by
  choose a' ha' using ha
  choose b' hb' using hb
  obtain ⟨c', rfl⟩ := hc
  have e1 : ∀ k, a k * b k = ((a' k * b' k : ℝ) : EReal) := fun k => by rw [ha' k, hb' k, EReal.coe_mul]
  have e2 : ∀ k, (a k * (c' : EReal)) * b k = ((a' k * c' * b' k : ℝ) : EReal) := fun k => by
    rw [ha' k, hb' k, EReal.coe_mul, EReal.coe_mul]
  simp only [e1, e2]
  rw [← coe_sum, ← coe_sum, ← EReal.coe_mul, Finset.sum_mul]
  congr 1
  exact Finset.sum_congr rfl fun k _ => by ring

/-- A dot product of real entries is real. -/
theorem isReal_dot {K : ℕ} (a b : Fin K → EReal) : (∀ k, IsReal (a k)) → (∀ k, IsReal (b k)) →
    IsReal (∑ k, a k * b k) :=
  fun ha hb => IsReal.sum _ _ fun k _ => IsReal.mul _ _ (ha k) (hb k)

end Idealize.ShloMosaic.LibFinite

end
-- ==== Proof.AlgConsts.lean ====
import proofs.«113400_j70781061038765_1_alg».proof.Proof.Spec
import proofs.«113400_j70781061038765_1_alg».proof.Proof.LibFinite
import Idealize.ShloMosaic.PureOps.Ideal
import Idealize.ShloMosaic.PureOps.Ideal.Laws

noncomputable section

namespace Cert.Algebra

open Idealize.ShloMosaic Idealize.ShloMosaic.ValueIdx Idealize.ShloMosaic.LibFinite
open scoped BigOperators

/-! The float words of the claim, as the extended reals they denote. -/

theorem zero_eq : Spec.zero = 0 := by
  unfold Spec.zero; simp [Ideal.ofBits, Ideal.ieee]

theorem one_eq : Spec.one = 1 := by
  unfold Spec.one; simp [Ideal.ofBits, Ideal.ieee, -EReal.coe_mul]; norm_num

theorem negInf_eq : Spec.negInf = ⊥ := by
  unfold Spec.negInf; simp [Ideal.ofBits, Ideal.ieee]

theorem D_eq : Spec.D = ((13421773 / 134217728 : ℝ) : EReal) := by
  unfold Spec.D; simp [Ideal.ofBits, Ideal.ieee, -EReal.coe_mul]; norm_num

theorem n8192_eq : Spec.n8192 = ((8192 : ℝ) : EReal) := by
  unfold Spec.n8192; simp [Ideal.ofBits, Ideal.ieee, -EReal.coe_mul]; norm_num

theorem n8191_eq : Spec.n8191 = ((8191 : ℝ) : EReal) := by
  unfold Spec.n8191; simp [Ideal.ofBits, Ideal.ieee, -EReal.coe_mul]; norm_num

theorem eps_pos : ∃ e : ℝ, 0 < e ∧ Spec.eps = (e : EReal) := by
  unfold Spec.eps
  refine ⟨_, ?_, by simp [Ideal.ofBits, Ideal.ieee, -EReal.coe_mul]; rfl⟩
  positivity

theorem wgt_real : IsReal Spec.wgt := by
  show IsReal (Ideal.ieee 8 23 (0xBFB6DB6E#32 : BitVec 32))
  exact isReal_ieee_of_exponent_ne 8 23 (0xBFB6DB6E#32 : BitVec 32) (by decide)

end Cert.Algebra

end
-- ==== Proof.AlgMasks.lean ====
import proofs.«113400_j70781061038765_1_alg».proof.Proof.Spec
import proofs.«113400_j70781061038765_1_alg».proof.Proof.LibFinite
import Idealize.ShloMosaic.PureOps.Ideal
import Idealize.ShloMosaic.PureOps.Ideal.Laws
import proofs.«113400_j70781061038765_1_alg».proof.Proof.AlgConsts

noncomputable section

namespace Cert.Algebra

open Idealize.ShloMosaic Idealize.ShloMosaic.ValueIdx Idealize.ShloMosaic.LibFinite
open scoped BigOperators

/-! The masks of the reference, under the hypothesis that every label lies in 0..9: the product of two one-hot
    rows is the indicator that the labels agree, and the three derived masks are the indicators the claim names. -/

/-- The indicator of a proposition as a real number, coerced. -/
theorem coe_ite (p : Prop) [Decidable p] : (((if p then 1 else 0 : ℝ)) : EReal) = if p then 1 else 0 := by
  split_ifs <;> simp

/-- A label in 0..9 read signed is its unsigned value, below 10. -/
theorem toNat_lt_ten (b : BitVec 32) (h : 0 ≤ b.toInt ∧ b.toInt < 10) : b.toNat < 10 := by
  have h1 := BitVec.toInt_eq_toNat_cond b
  have h2 := b.isLt
  rw [h1] at h
  split at h <;> omega

/-- A word equals the word of a small number exactly when its value is that number. -/
theorem eq_ofNat_iff (b : BitVec 32) (a : Fin 10) : b = BitVec.ofNat 32 a.val ↔ b.toNat = a.val := by
  constructor
  · intro h; rw [h, BitVec.toNat_ofNat]; have := a.isLt; omega
  · intro h; apply BitVec.eq_of_toNat_eq; rw [BitVec.toNat_ofNat, h]; have := a.isLt; omega

/-- The product of the one-hot rows of r and j, summed over the classes, is 1 when the labels agree, else 0. -/
theorem mpf_eq (t : Spec.T) (ht : Spec.InRange t) (r j : Fin 8192) :
    Spec.mpf t r j = if t (ix1 r) = t (ix1 j) then 1 else 0 := by
  have hr := toNat_lt_ten _ (ht (ix1 r))
  unfold Spec.mpf Spec.oh
  rw [Finset.sum_eq_single (⟨(t (ix1 r)).toNat, hr⟩ : Fin 10)]
  · rw [if_pos ((eq_ofNat_iff _ _).2 rfl), one_mul]
    by_cases h : t (ix1 r) = t (ix1 j)
    · rw [if_pos h, if_pos]; rw [eq_ofNat_iff]; exact (congrArg BitVec.toNat h).symm
    · rw [if_neg h, if_neg]; rw [eq_ofNat_iff]; intro h'; exact h (BitVec.eq_of_toNat_eq h'.symm)
  · intro a _ ha
    rw [if_neg, zero_mul]
    rw [eq_ofNat_iff]; intro h'; exact ha (Fin.ext h'.symm)
  · intro h; exact absurd (Finset.mem_univ _) h

/-- The positives' mask of the reference is the one the claim names: labels agree, off the diagonal. -/
theorem mp_eq (t : Spec.T) (ht : Spec.InRange t) (r j : Fin 8192) : Spec.mp t r j = Spec.pos t r j := by
  unfold Spec.mp Spec.pos Spec.eye
  rw [mpf_eq t ht]
  by_cases hrj : r = j
  · subst hrj
    rw [if_pos rfl, if_pos rfl, if_neg (fun h => h.2 rfl)]
    rw [← EReal.coe_one, ← EReal.coe_sub, sub_self, EReal.coe_zero]
  · rw [if_neg hrj, sub_zero]
    by_cases h : t (ix1 r) = t (ix1 j)
    · rw [if_pos h, if_pos ⟨h, hrj⟩]
    · rw [if_neg h, if_neg (fun h' => h h'.1)]

/-- The negatives' mask is 1 when the labels differ, else 0. -/
theorem mneg_eq (t : Spec.T) (ht : Spec.InRange t) (r j : Fin 8192) :
    Spec.mneg t r j = if t (ix1 r) = t (ix1 j) then 0 else 1 := by
  unfold Spec.mneg
  rw [mpf_eq t ht, one_eq]
  split_ifs
  · rw [← EReal.coe_one, ← EReal.coe_sub, sub_self, EReal.coe_zero]
  · rw [sub_zero]

/-- The mask of the exponentials is 1 off the diagonal, 0 on it. -/
theorem lmask_eq (t : Spec.T) (ht : Spec.InRange t) (r j : Fin 8192) : Spec.lmask t r j = Spec.offd r j := by
  unfold Spec.lmask
  rw [mp_eq t ht, mneg_eq t ht]
  unfold Spec.pos Spec.offd
  by_cases hrj : r = j
  · subst hrj
    rw [if_neg (fun h => h.2 rfl), if_pos rfl, if_pos rfl, add_zero]
  · rw [if_neg hrj]
    by_cases h : t (ix1 r) = t (ix1 j)
    · rw [if_pos ⟨h, hrj⟩, if_pos h, add_zero]
    · rw [if_neg (fun h' => h h'.1), if_neg h, zero_add]

/-- The positives' mask as a coerced real. -/
def posr (t : Spec.T) (r j : Fin 8192) : ℝ := if t (ix1 r) = t (ix1 j) ∧ r ≠ j then 1 else 0

theorem pos_coe (t : Spec.T) (r j : Fin 8192) : Spec.pos t r j = ((posr t r j : ℝ) : EReal) := by
  unfold Spec.pos posr; rw [coe_ite]

/-- The off-diagonal mask as a coerced real. -/
def offdr (r j : Fin 8192) : ℝ := if r = j then 0 else 1

theorem offd_coe (r j : Fin 8192) : Spec.offd r j = ((offdr r j : ℝ) : EReal) := by
  unfold Spec.offd offdr; split_ifs <;> simp

theorem offdr_nonneg (r j : Fin 8192) : 0 ≤ offdr r j := by
  unfold offdr; split_ifs <;> norm_num

end Cert.Algebra

end
-- ==== Proof.AlgLogits.lean ====
import proofs.«113400_j70781061038765_1_alg».proof.Proof.Spec
import proofs.«113400_j70781061038765_1_alg».proof.Proof.LibFinite
import Idealize.ShloMosaic.PureOps.Ideal
import Idealize.ShloMosaic.PureOps.Ideal.Laws
import proofs.«113400_j70781061038765_1_alg».proof.Proof.AlgConsts

noncomputable section

namespace Cert.Algebra

open Idealize.ShloMosaic Idealize.ShloMosaic.ValueIdx Idealize.ShloMosaic.LibFinite
open scoped BigOperators

/-! The logits and the row maximum: under the hypothesis that every feature is a real number, the inner products,
    the scaled similarities and the row maxima are real numbers, and the reference's division by the temperature
    is the claim's multiplication by its exact reciprocal. -/

/-- The features as real numbers. -/
def xr (x : Spec.X) : (⟨2, ![8192, 128]⟩ : Shape).Idx → ℝ := fun i => (x i).toReal

theorem x_coe (x : Spec.X) (hx : Spec.Fin_ x) (i : (⟨2, ![8192, 128]⟩ : Shape).Idx) : x i = ((xr x i : ℝ) : EReal) := by
  obtain ⟨a, ha⟩ := hx i
  unfold xr; rw [ha, EReal.toReal_coe]

/-- The inner product of two rows as a real number. -/
def dotr (x : Spec.X) (r j : Fin 8192) : ℝ := ∑ k : Fin 128, xr x (ix2 r k) * xr x (ix2 j k)

theorem dotp_coe (x : Spec.X) (hx : Spec.Fin_ x) (r j : Fin 8192) : Spec.dotp x r j = ((dotr x r j : ℝ) : EReal) := by
  unfold Spec.dotp dotr
  rw [coe_sum]
  refine Finset.sum_congr rfl fun k _ => ?_
  rw [EReal.coe_mul, ← x_coe x hx, ← x_coe x hx]

/-- The scaled similarity as a real number. -/
def lgr (x : Spec.X) (r j : Fin 8192) : ℝ := dotr x r j * (134217728 / 13421773)

theorem lg_coe (x : Spec.X) (hx : Spec.Fin_ x) (r j : Fin 8192) : Spec.lg x r j = ((lgr x r j : ℝ) : EReal) := by
  unfold Spec.lg Spec.c lgr; rw [dotp_coe x hx, EReal.coe_mul]

/-- Dividing by the temperature is multiplying by its exact reciprocal. -/
theorem lgR_eq (x : Spec.X) (r j : Fin 8192) : Spec.lgR x r j = Spec.lg x r j := by
  unfold Spec.lgR Spec.lg Spec.c
  have h : (1 / (13421773 / 134217728) : ℝ) = 134217728 / 13421773 := by norm_num
  rw [D_eq, Ideal.div_coe (by norm_num), h]

/-- A maximum folded from bottom over real entries is bottom or a real number. -/
theorem fold_max_bot_or_real {ι : Type*} (S : Finset ι) (f : ι → EReal) (hf : ∀ i ∈ S, IsReal (f i)) :
    S.fold max ⊥ f = ⊥ ∨ IsReal (S.fold max ⊥ f) := by
  classical
  induction S using Finset.induction_on with
  | empty => left; rw [Finset.fold_empty]
  | insert a s ha ih =>
    rw [Finset.fold_insert ha]
    right
    rcases ih (fun i hi => hf i (Finset.mem_insert_of_mem hi)) with h | h
    · rw [h, max_bot_right]; exact hf a (Finset.mem_insert_self a s)
    · exact IsReal.max _ _ (hf a (Finset.mem_insert_self a s)) h

/-- A maximum folded from bottom over a nonempty family of real entries is a real number. -/
theorem isReal_fold_max {ι : Type*} (S : Finset ι) (f : ι → EReal) (i0 : ι) (h0 : i0 ∈ S) (hf : ∀ i ∈ S, IsReal (f i)) :
    IsReal (S.fold max ⊥ f) := by
  rcases fold_max_bot_or_real S f hf with h | h
  · exfalso
    have h1 : f i0 ≤ S.fold max ⊥ f := (Finset.le_fold_max _).2 (Or.inr ⟨i0, h0, le_refl _⟩)
    obtain ⟨a, ha⟩ := hf i0 h0
    rw [h, ha] at h1
    exact absurd (le_bot_iff.1 h1) (EReal.coe_ne_bot a)
  · exact h

theorem rmax_real (x : Spec.X) (hx : Spec.Fin_ x) (r : Fin 8192) : IsReal (Spec.rmax x r) := by
  unfold Spec.rmax
  exact isReal_fold_max _ _ (0 : Fin 8192) (Finset.mem_univ _) fun j _ => ⟨_, lg_coe x hx r j⟩

/-- The row maximum as a real number. -/
def rmaxr (x : Spec.X) (r : Fin 8192) : ℝ := (Spec.rmax x r).toReal

theorem rmax_coe (x : Spec.X) (hx : Spec.Fin_ x) (r : Fin 8192) : Spec.rmax x r = ((rmaxr x r : ℝ) : EReal) := by
  obtain ⟨a, ha⟩ := rmax_real x hx r
  unfold rmaxr; rw [ha, EReal.toReal_coe]

/-- The reference's row maximum, folded from the word of minus infinity, is the claim's. -/
theorem rmaxR_eq (x : Spec.X) (r : Fin 8192) : Spec.rmaxR x r = Spec.rmax x r := by
  unfold Spec.rmaxR Spec.rmax
  simp only [negInf_eq, lgR_eq]

/-- The reference's shifted logit. -/
theorem shR_eq (x : Spec.X) (r j : Fin 8192) : Spec.shR x r j = Spec.lg x r j - Spec.rmax x r := by
  unfold Spec.shR; rw [lgR_eq, rmaxR_eq]

theorem sh_coe (x : Spec.X) (hx : Spec.Fin_ x) (r j : Fin 8192) :
    Spec.lg x r j - Spec.rmax x r = ((lgr x r j - rmaxr x r : ℝ) : EReal) := by
  rw [lg_coe x hx, rmax_coe x hx, EReal.coe_sub]

end Cert.Algebra

end
-- ==== Proof.AlgRow.lean ====
import proofs.«113400_j70781061038765_1_alg».proof.Proof.Spec
import proofs.«113400_j70781061038765_1_alg».proof.Proof.LibFinite
import Idealize.ShloMosaic.PureOps.Ideal
import Idealize.ShloMosaic.PureOps.Ideal.Laws
import proofs.«113400_j70781061038765_1_alg».proof.Proof.AlgConsts
import proofs.«113400_j70781061038765_1_alg».proof.Proof.AlgMasks
import proofs.«113400_j70781061038765_1_alg».proof.Proof.AlgLogits

noncomputable section

namespace Cert.Algebra

open Idealize.ShloMosaic Idealize.ShloMosaic.ValueIdx Idealize.ShloMosaic.LibFinite
open scoped BigOperators

/-! The row identity: for each row the reference's masked sum of log-probabilities over its count of positives is
    the claim's (s - cnt (rmax + log (z + eps))) / (cnt + eps), because every quantity involved is a real number. -/

/-- The small positive constant as a real number. -/
def epsr : ℝ := Spec.eps.toReal

theorem eps_coe : Spec.eps = ((epsr : ℝ) : EReal) := by
  obtain ⟨e, _, he⟩ := eps_pos
  unfold epsr; rw [he, EReal.toReal_coe]

theorem epsr_pos : 0 < epsr := by
  obtain ⟨e, h, he⟩ := eps_pos
  unfold epsr; rw [he, EReal.toReal_coe]; exact h

/-- The masked sum of exponentials as a real number. -/
def zr (x : Spec.X) (r : Fin 8192) : ℝ := ∑ j : Fin 8192, Real.exp (lgr x r j - rmaxr x r) * offdr r j

theorem z_coe (x : Spec.X) (hx : Spec.Fin_ x) (r : Fin 8192) : Spec.z x r = ((zr x r : ℝ) : EReal) := by
  unfold Spec.z zr
  rw [coe_sum]
  refine Finset.sum_congr rfl fun j _ => ?_
  rw [sh_coe x hx, offd_coe, Ideal.exp_coe, EReal.coe_mul]

theorem zr_nonneg (x : Spec.X) (r : Fin 8192) : 0 ≤ zr x r :=
  Finset.sum_nonneg fun j _ => mul_nonneg (Real.exp_pos _).le (offdr_nonneg r j)

/-- The reference's normaliser is the claim's. -/
theorem ZR_eq (x : Spec.X) (t : Spec.T) (ht : Spec.InRange t) (r : Fin 8192) : Spec.ZR x t r = Spec.z x r := by
  unfold Spec.ZR Spec.z
  rw [zero_eq, zero_add]
  refine Finset.sum_congr rfl fun j _ => ?_
  rw [shR_eq, lmask_eq t ht]

/-- The logarithm of the normaliser plus the small constant is a real number. -/
theorem log_coe (x : Spec.X) (hx : Spec.Fin_ x) (r : Fin 8192) :
    Ideal.log (Spec.z x r + Spec.eps) = ((Real.log (zr x r + epsr) : ℝ) : EReal) := by
  rw [z_coe x hx, eps_coe, ← EReal.coe_add, Ideal.log_coe, if_neg]
  exact not_le.2 (add_pos_of_nonneg_of_pos (zr_nonneg x r) epsr_pos)

/-- The sum of the positives' logits and the count of positives, as real numbers. -/
def sr (x : Spec.X) (t : Spec.T) (r : Fin 8192) : ℝ := ∑ j : Fin 8192, posr t r j * lgr x r j
def cntr (t : Spec.T) (r : Fin 8192) : ℝ := ∑ j : Fin 8192, posr t r j

theorem s_coe (x : Spec.X) (hx : Spec.Fin_ x) (t : Spec.T) (r : Fin 8192) : Spec.s x t r = ((sr x t r : ℝ) : EReal) := by
  unfold Spec.s sr
  rw [coe_sum]
  refine Finset.sum_congr rfl fun j _ => ?_
  rw [pos_coe, lg_coe x hx, EReal.coe_mul]

theorem cnt_coe (t : Spec.T) (r : Fin 8192) : Spec.cnt t r = ((cntr t r : ℝ) : EReal) := by
  unfold Spec.cnt cntr
  rw [coe_sum]
  exact Finset.sum_congr rfl fun j _ => pos_coe t r j

/-- The reference's count of positives is the claim's. -/
theorem denR_eq (t : Spec.T) (ht : Spec.InRange t) (r : Fin 8192) : Spec.denR t r = Spec.cnt t r := by
  unfold Spec.denR Spec.cnt
  rw [zero_eq, zero_add]
  exact Finset.sum_congr rfl fun j _ => mp_eq t ht r j

/-- The reference's numerator, the sum over the positives of the shifted logits less the log-normaliser, is
    s - cnt (rmax + log (z + eps)): the sum is split over the reals. -/
theorem numR_eq (x : Spec.X) (t : Spec.T) (hx : Spec.Fin_ x) (ht : Spec.InRange t) (r : Fin 8192) :
    Spec.numR x t r = Spec.s x t r - Spec.cnt t r * (Spec.rmax x r + Ideal.log (Spec.z x r + Spec.eps)) := by
  have hterm : ∀ j : Fin 8192, Spec.mp t r j * Spec.lpR x t r j
      = ((posr t r j * (lgr x r j - rmaxr x r - Real.log (zr x r + epsr)) : ℝ) : EReal) := fun j => by
    unfold Spec.lpR
    rw [mp_eq t ht, shR_eq, ZR_eq x t ht, log_coe x hx, pos_coe, sh_coe x hx, ← EReal.coe_sub, ← EReal.coe_mul]
  unfold Spec.numR
  rw [zero_eq, zero_add, Finset.sum_congr rfl fun j _ => hterm j, ← coe_sum, log_coe x hx, s_coe x hx, cnt_coe,
    rmax_coe x hx, ← EReal.coe_add, ← EReal.coe_mul, ← EReal.coe_sub]
  congr 1
  unfold sr cntr
  rw [Finset.sum_mul, ← Finset.sum_sub_distrib]
  exact Finset.sum_congr rfl fun j _ => by ring

/-- The reference's mean log-probability of the positives of a row is the claim's. -/
theorem mlppR_eq (x : Spec.X) (t : Spec.T) (hx : Spec.Fin_ x) (ht : Spec.InRange t) (r : Fin 8192) :
    Ideal.div (Spec.numR x t r) (Spec.denR t r + Spec.eps) = Spec.mlpp x t r := by
  unfold Spec.mlpp
  rw [numR_eq x t hx ht, denR_eq t ht]

end Cert.Algebra

end
-- ==== Proof.AlgResults.lean ====
import proofs.«113400_j70781061038765_1_alg».proof.Proof.Spec
import proofs.«113400_j70781061038765_1_alg».proof.Proof.LibFinite
import Idealize.ShloMosaic.PureOps.Ideal
import Idealize.ShloMosaic.PureOps.Ideal.Laws
import proofs.«113400_j70781061038765_1_alg».proof.Proof.AlgConsts
import proofs.«113400_j70781061038765_1_alg».proof.Proof.AlgMasks
import proofs.«113400_j70781061038765_1_alg».proof.Proof.AlgLogits
import proofs.«113400_j70781061038765_1_alg».proof.Proof.AlgRow

noncomputable section

namespace Cert.Algebra

open Idealize.ShloMosaic Idealize.ShloMosaic.ValueIdx Idealize.ShloMosaic.LibFinite
open scoped BigOperators

/-! The three results: the reference's arrangement and the claim's are one function. -/

/-- The negatives' mask as a coerced real: one, less the positives' mask, less the diagonal. -/
theorem mneg_coe (t : Spec.T) (ht : Spec.InRange t) (r j : Fin 8192) :
    Spec.mneg t r j = ((1 - posr t r j - (if r = j then (1 : ℝ) else 0) : ℝ) : EReal) := by
  rw [mneg_eq t ht]
  unfold posr
  by_cases hrj : r = j
  · subst hrj; simp
  · by_cases h : t (ix1 r) = t (ix1 j)
    · simp [h, hrj]
    · simp [h, hrj]

/-- The count of negatives of a row: of the 8192 columns, one is the diagonal and cnt are positives. -/
theorem negsum_eq (t : Spec.T) (ht : Spec.InRange t) (r : Fin 8192) :
    Spec.zero + ∑ j : Fin 8192, Spec.mneg t r j = Spec.n8191 - Spec.cnt t r := by
  rw [zero_eq, zero_add, n8191_eq, cnt_coe, ← EReal.coe_sub, Finset.sum_congr rfl fun j _ => mneg_coe t ht r j,
    ← coe_sum]
  congr 1
  unfold cntr
  rw [Finset.sum_sub_distrib, Finset.sum_sub_distrib, Finset.sum_ite_eq, if_pos (Finset.mem_univ r),
    Finset.sum_const, Finset.card_univ, Fintype.card_fin, nsmul_eq_mul, mul_one]
  push_cast
  ring

theorem loss_eq (x : Spec.X) (t : Spec.T) (hx : Spec.Fin_ x) (ht : Spec.InRange t) : Spec.lossR x t = Spec.loss x t := by
  unfold Spec.lossR Spec.loss
  rw [Finset.sum_congr rfl fun r _ => mlppR_eq x t hx ht r]

theorem avgPos_eq (t : Spec.T) (ht : Spec.InRange t) : Spec.avgPosR t = Spec.avgPos t := by
  unfold Spec.avgPosR Spec.avgPos
  rw [Finset.sum_congr rfl fun r _ => denR_eq t ht r]

theorem avgNeg_eq (t : Spec.T) (ht : Spec.InRange t) : Spec.avgNegR t = Spec.avgNeg t := by
  unfold Spec.avgNegR Spec.avgNeg
  rw [Finset.sum_congr rfl fun r _ => negsum_eq t ht r]

end Cert.Algebra

end
-- ==== Proof.PreDecode.lean ====
/-
  The precondition decoded.

  The printed predicate is the conjunction of three "all" tests: every feature has absolute value below plus infinity,
  every label is at least 0 as a signed word, every label is below 10 as a signed word.  When it holds, every feature
  is a real number and every label lies in 0..9.
-/
import proofs.«113400_j70781061038765_1_alg».proof.Pre_finite_inputs
import proofs.«113400_j70781061038765_1_alg».proof.Proof.Spec
import proofs.«113400_j70781061038765_1_alg».proof.Proof.LibColumn
import Idealize.ShloMosaic.Lib.ReduceAll
import Idealize.ShloMosaic.Lib.ValueIdx
import Idealize.ShloMosaic.Lib.Pipeline.Value
import Idealize.ShloMosaic.PureOps.Ideal
import Idealize.ShloMosaic.PureOps.Ideal.Laws

noncomputable section

namespace Cert.PreSide

open Idealize.ShloMosaic Idealize.ShloMosaic.ValueIdx
open Cert.Pre_finite_inputs

/-- The shape with no axis has one index. -/
instance : Subsingleton S_.Idx := ⟨fun a b => funext fun d => d.elim0⟩

/-- A one-bit word made from a Boolean is 1 exactly when the Boolean is true. -/
theorem ofBool_eq_one (b : Bool) : BitVec.ofBool b = 1#1 ↔ b = true := by cases b <;> decide

/-- The word of plus infinity denotes top. -/
theorem posInf_eq : Ideal.ofBits .f32 0x7F800000#32 = (⊤ : EReal) := by
  simp [Ideal.ofBits, Ideal.ieee]

/-- An extended real whose absolute value is below plus infinity is a real number. -/
theorem real_of_abs_lt_top (a : EReal)
    (h : Ideal.cmp .olt (max a (-a)) (Ideal.ofBits .f32 0x7F800000#32) = 1#1) : ∃ r : ℝ, a = (r : EReal) := by
  rw [posInf_eq] at h
  change BitVec.ofBool (decide (max a (-a) < ⊤)) = 1#1 at h
  rw [ofBool_eq_one, decide_eq_true_eq] at h
  induction a using EReal.rec with
  | bot => simp at h
  | coe r => exact ⟨r, rfl⟩
  | top => simp at h

/-- A word at least 0 as a signed word has a nonnegative signed value. -/
theorem toInt_nonneg_of_sge (w : BitVec 32) (h : IntOp.cmpi .sge w 0#32 = 1#1) : 0 ≤ w.toInt := by
  change BitVec.ofBool ((0#32).sle w) = 1#1 at h
  rw [ofBool_eq_one] at h
  simpa [BitVec.sle] using h

/-- A word below 10 as a signed word has a signed value below 10. -/
theorem toInt_lt_of_slt (w : BitVec 32) (h : IntOp.cmpi .slt w 10#32 = 1#1) : w.toInt < 10 := by
  change BitVec.ofBool (w.slt 10#32) = 1#1 at h
  rw [ofBool_eq_one] at h
  have e : (10#32 : BitVec 32).toInt = 10 := by decide
  simpa [BitVec.slt, e] using h

/-- THE PRECONDITION DECODED: every feature is a real number and every label lies in 0..9. -/
theorem pre_decode [Cert.Pre_finite_inputs.Facts] (x : FVec Ideal Cert.Pre_finite_inputs.S8192x128 .f32)
    (t : IVec Cert.Pre_finite_inputs.S8192 32)
    (h : Cert.Pre_finite_inputs.fn (F := Ideal) x t = fun _ => 1#1) : Cert.Spec.Fin_ x ∧ Cert.Spec.InRange t := by
  have h0 := congrFun h ValueIdx.ix0
  dsimp only [Cert.Pre_finite_inputs.fn] at h0
  change IntOp.andi (IntOp.andi _ _) _ = 1#1 at h0
  obtain ⟨h12, h3⟩ := IntOp.andi_eq_one.1 h0
  obtain ⟨h1, h2⟩ := IntOp.andi_eq_one.1 h12
  refine ⟨fun i => ?_, fun i => ⟨?_, ?_⟩⟩
  · have e := Host.reduce_andi_all _ _ _ _ _ h1 i
    rw [cmpf_apply, Cert.LibColumn.bcastInDim_scalar_apply _ _ i ValueIdx.ix0] at e
    exact real_of_abs_lt_top (x i) e
  · have e := Host.reduce_andi_all _ _ _ _ _ h2 i
    change IntOp.cmpi .sge (t i) (broadcastInDim S8192 ![] Facts.bcast_S_S8192 (constantI S_ 32 0#32) i) = 1#1 at e
    rw [Cert.LibColumn.bcastInDim_scalar_apply _ _ i ValueIdx.ix0] at e
    exact toInt_nonneg_of_sge (t i) e
  · have e := Host.reduce_andi_all _ _ _ _ _ h3 i
    change IntOp.cmpi .slt (t i) (broadcastInDim S8192 ![] Facts.bcast_S_S8192 (constantI S_ 32 10#32) i) = 1#1 at e
    rw [Cert.LibColumn.bcastInDim_scalar_apply _ _ i ValueIdx.ix0] at e
    exact toInt_lt_of_slt (t i) e

end Cert.PreSide

end
-- ==== Proof.Claims.lean ====
/-
  The certificate's claims, assembled from the run of the idealized kernel, the run of the reference, the two readings of
  their results as closed forms of the arguments, the decoded precondition and the algebra between the closed forms.
-/
import proofs.«113400_j70781061038765_1_alg».proof.Defs
import proofs.«113400_j70781061038765_1_alg».proof.Proof.Gen.Kernel
import proofs.«113400_j70781061038765_1_alg».proof.Proof.Gen.KernelIdeal
import proofs.«113400_j70781061038765_1_alg».proof.Proof.Gen.ReferenceIdeal
import proofs.«113400_j70781061038765_1_alg».proof.Proof.Gen.ReferenceIdeal.Run
import proofs.«113400_j70781061038765_1_alg».proof.Proof.Gen.Pre_finite_inputs
import proofs.«113400_j70781061038765_1_alg».proof.Proof.KiFrame
import proofs.«113400_j70781061038765_1_alg».proof.Proof.KwFrame
import proofs.«113400_j70781061038765_1_alg».proof.Proof.KiFinal
import proofs.«113400_j70781061038765_1_alg».proof.Proof.KerTail
import proofs.«113400_j70781061038765_1_alg».proof.Proof.RefRun
import proofs.«113400_j70781061038765_1_alg».proof.Proof.AlgResults
import proofs.«113400_j70781061038765_1_alg».proof.Proof.PreDecode
import Idealize.ShloMosaic.PureOps.IdealRules

noncomputable section

namespace Cert.Proof.Claims

open Idealize.ShloMosaic Idealize.ShloMosaic.TcCoe Idealize.SL.Sem

/-- The idealized kernel's run ends with the three results at the kernel-side closed forms of the launch contents of
    its arguments, and the arguments unchanged. -/
theorem kernel_results (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v23) = (fun _ => Spec.loss (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      ∧ r.2.mem ((c.tc : Thread Cert.KernelIdeal.nD Cert.KernelIdeal.τ).loc Cert.KernelIdeal.main_v25) = (fun _ => Spec.avgPos (m ((c.tc : Thread Cert.KernelIdeal.nD Cert.KernelIdeal.τ).loc Cert.KernelIdeal.main_arg1)))
      ∧ r.2.mem ((c.tc : Thread Cert.KernelIdeal.nD Cert.KernelIdeal.τ).loc Cert.KernelIdeal.main_v29) = (fun _ => Spec.avgNeg (m ((c.tc : Thread Cert.KernelIdeal.nD Cert.KernelIdeal.τ).loc Cert.KernelIdeal.main_arg1)))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run Cert.KernelIdeal.defs _ _).mono (fun r h c => by
      have hq : Cert.KernelIdeal.Hand.QC m c r.2 := h c
      -- the region leaves the four per-row numbers in the result array
      have hW : Cert.KernelIdeal.Hand.W₁ m c (Proc.devRef .tc Cert.KernelIdeal.main_v3)
          = Spec.rowStats (m ((c.tc : Thread Cert.KernelIdeal.nD Cert.KernelIdeal.τ).loc Cert.KernelIdeal.main_arg0)) (m ((c.tc : Thread Cert.KernelIdeal.nD Cert.KernelIdeal.τ).loc Cert.KernelIdeal.main_arg1)) :=
        (Cert.KernelIdeal.Hand.W₁_out m c).trans (Cert.KernelIdeal.HandValue.final_out m c)
      -- the host's tail turns them into the three results
      have h23 := Cert.KernelSide.Tail.tail_loss (Cert.KernelIdeal.Hand.W₁ m c) _ _ hW
      have h25 := Cert.KernelSide.Tail.tail_avgPos (Cert.KernelIdeal.Hand.W₁ m c) _ _ hW
      have h29 := Cert.KernelSide.Tail.tail_avgNeg (Cert.KernelIdeal.Hand.W₁ m c) _ _ hW
      exact ⟨(hq _ (Cert.KernelIdeal.HandFrame.mem_ucRefs Cert.KernelIdeal.main_v23 rfl)).trans h23,
        (hq _ (Cert.KernelIdeal.HandFrame.mem_ucRefs Cert.KernelIdeal.main_v25 rfl)).trans h25,
        (hq _ (Cert.KernelIdeal.HandFrame.mem_ucRefs Cert.KernelIdeal.main_v29 rfl)).trans h29,
        Cert.KernelIdeal.HandFrame.args_final m c r.2 hq Cert.KernelIdeal.main_arg0 (Or.inl rfl),
        Cert.KernelIdeal.HandFrame.args_final m c r.2 hq Cert.KernelIdeal.main_arg1 (Or.inr rfl)⟩)
    (Cert.KernelIdeal.Hand.run_main (F := Ideal) m g)

theorem frame_Kernel : Cert.frame_Kernel (hKernel := Cert.Kernel.Gen.facts) (hPre_finite_inputs := Cert.Pre_finite_inputs.Gen.facts) :=
  fun m g _ => Cert.Kernel.HandFrame.run_frame (F := Bits) m g

theorem frame_KernelIdeal : Cert.frame_KernelIdeal (hKernelIdeal := Cert.KernelIdeal.Gen.facts) (hPre_finite_inputs := Cert.Pre_finite_inputs.Gen.facts) :=
  fun m g _ => Cert.KernelIdeal.HandFrame.run_frame (F := Ideal) m g

theorem frame_ReferenceIdeal : Cert.frame_ReferenceIdeal (hReferenceIdeal := Cert.ReferenceIdeal.Gen.facts) (hPre_finite_inputs := Cert.Pre_finite_inputs.Gen.facts) :=
  fun m g _ => (θ_run Cert.ReferenceIdeal.defs _ _).mono (fun _ h c => (h c).2.2.2) (Cert.ReferenceIdeal.Value.run (F := Ideal) m g)

theorem preserves_Kernel_KernelIdeal : Cert.preserves_Kernel_KernelIdeal :=
  IdealRules.named_const.statement Cert.KernelIdeal.κ "inv_temp" .f32 0x41200000#32 ((134217728 / 13421773 : ℝ) : EReal) rfl

theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m g m' g' hpre hagree
  refine ⟨fun c => (fun _ => Spec.loss (m ((c.tc : Thread Cert.KernelIdeal.nD Cert.KernelIdeal.τ).loc Cert.KernelIdeal.main_arg0)) (m ((c.tc : Thread Cert.KernelIdeal.nD Cert.KernelIdeal.τ).loc Cert.KernelIdeal.main_arg1))),
    fun c => (fun _ => Spec.avgPos (m ((c.tc : Thread Cert.KernelIdeal.nD Cert.KernelIdeal.τ).loc Cert.KernelIdeal.main_arg1))),
    fun c => (fun _ => Spec.avgNeg (m ((c.tc : Thread Cert.KernelIdeal.nD Cert.KernelIdeal.τ).loc Cert.KernelIdeal.main_arg1))),
    kernel_results m g, ?_⟩
  refine (θ_run Cert.ReferenceIdeal.defs _ _).mono (fun r h c => ?_) (Cert.ReferenceIdeal.Value.run (F := Ideal) m' g')
  -- the precondition, decoded: every feature a real, every label in range
  obtain ⟨hx, ht⟩ := Cert.PreSide.pre_decode (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (hpre c)
  obtain ⟨h0, h1, h2, h3, h4⟩ := h c
  have e0 := (hagree c).1
  have e1 := (hagree c).2
  refine ⟨?_, ?_, ?_, h3, h4⟩
  · refine (h0.trans (Cert.RefSide.ref_loss m' c)).trans ?_
    rw [e0, e1, Cert.Algebra.loss_eq _ _ hx ht]; rfl
  · refine (h1.trans (Cert.RefSide.ref_avgPos m' c)).trans ?_
    rw [e1, Cert.Algebra.avgPos_eq _ ht]; rfl
  · refine (h2.trans (Cert.RefSide.ref_avgNeg m' c)).trans ?_
    rw [e1, Cert.Algebra.avgNeg_eq _ ht]; rfl

/-- Everything the certificate claims. -/
theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves_Kernel_KernelIdeal, algebraic⟩

end Cert.Proof.Claims

end
-- ==== Proof.lean ====
/-
  The kernel and the reference compute one supervised-contrastive loss, and two label statistics, of 8192 feature rows
  x (128 columns) with labels t.

  Per row r the kernel's region leaves four numbers — s r = sum_j pos r j * lg r j, cnt r = sum_j pos r j, the row
  maximum rmax r of lg r ·, and z r = sum_j exp(lg r j − rmax r) * offd r j — where lg r j is the inner product of
  rows r and j times the scale c, pos marks equal labels off the diagonal and offd the off-diagonal; the host then
  forms (s − cnt * (rmax + log(z + eps))) / (cnt + eps) per row, its mean times a weight, and the means of cnt and of
  8191 − cnt. The reference builds the same masks from one-hot rows (mpf = one-hot times its transpose, minus the
  identity), divides the inner products by the temperature word D, and sums mask * ((lg − rmax) − log(Z + eps)).

  With the kernel's scale read as the exact reciprocal of D, and over real features and labels in 0..9, the two
  arrangements are one function: the one-hot products are the label comparisons, dividing by D is multiplying by its
  reciprocal, and the row identity sum_j p_j * ((l_j − M) − L) = sum_j p_j * l_j − (sum_j p_j) * (M + L) is
  distributivity over the reals — every quantity in it is a real number, which is what the precondition gives.

  The kernel's program is three host operations, the region, thirty-six host operations; its region's first two windows
  read one array (the converted features), so at the region's entry that array's buffer is split into two halves,
  one per window, and joined again at the exit. Each grid point t overwrites block t of the 8192 x 4 result with the
  statistics of rows 256 t … 256 t + 255; the blocks tile the result.

  Frames: each program terminates, nothing faults, the arguments end unchanged. The idealization's one rewrite
  (the scale named as the reciprocal of D) is the rule's own statement.
-/
import proofs.«113400_j70781061038765_1_alg».proof.Defs
import proofs.«113400_j70781061038765_1_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Claims.frame_Kernel, Cert.Proof.Claims.frame_KernelIdeal, Cert.Proof.Claims.frame_ReferenceIdeal,
    Cert.Proof.Claims.preserves_Kernel_KernelIdeal, Cert.Proof.Claims.algebraic⟩

end Cert.Proof

end
